-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x256 : Shape := ⟨2, ![256, 256]⟩
abbrev S256 : Shape := ⟨1, ![256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_arg14 : FVec F S256 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  main_v73

def fn_part3 {F : FTy → Type} [FloatOps F] (main_arg11 : FVec F S256 .f32) (main_arg12 : FVec F S256x256 .f32) (main_arg13 : FVec F S256x256 .f32) (main_arg14 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_v63 main_v67

def fn_part2 {F : FTy → Type} [FloatOps F] (main_arg7 : FVec F S256x256 .f32) (main_arg8 : FVec F S256 .f32) (main_arg9 : FVec F S256x256 .f32) (main_arg10 : FVec F S256x256 .f32) (main_arg11 : FVec F S256 .f32) (main_arg12 : FVec F S256x256 .f32) (main_arg13 : FVec F S256x256 .f32) (main_arg14 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_v48 main_v49 main_v50

def fn_part1 {F : FTy → Type} [FloatOps F] (main_arg4 : FVec F S256x256 .f32) (main_arg5 : FVec F S256 .f32) (main_arg6 : FVec F S256x256 .f32) (main_arg7 : FVec F S256x256 .f32) (main_arg8 : FVec F S256 .f32) (main_arg9 : FVec F S256x256 .f32) (main_arg10 : FVec F S256x256 .f32) (main_arg11 : FVec F S256 .f32) (main_arg12 : FVec F S256x256 .f32) (main_arg13 : FVec F S256x256 .f32) (main_arg14 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S65536x256 .f32) (main_arg1 : FVec F S65536x256 .f32) (main_arg2 : FVec F S65536x256 .f32) (main_arg3 : FVec F S256x256 .f32) (main_arg4 : FVec F S256x256 .f32) (main_arg5 : FVec F S256 .f32) (main_arg6 : FVec F S256x256 .f32) (main_arg7 : FVec F S256x256 .f32) (main_arg8 : FVec F S256 .f32) (main_arg9 : FVec F S256x256 .f32) (main_arg10 : FVec F S256x256 .f32) (main_arg11 : FVec F S256 .f32) (main_arg12 : FVec F S256x256 .f32) (main_arg13 : FVec F S256x256 .f32) (main_arg14 : FVec F S256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S65536x256 : Shape := ⟨2, ![65536, 256]⟩
abbrev S256x256 : Shape := ⟨2, ![256, 256]⟩
abbrev S256 : Shape := ⟨1, ![256]⟩
abbrev S256x1024 : Shape := ⟨2, ![256, 1024]⟩
abbrev S1024 : Shape := ⟨1, ![1024]⟩
abbrev S1x1024 : Shape := ⟨2, ![1, 1024]⟩
abbrev S2048x256 : Shape := ⟨2, ![2048, 256]⟩
abbrev S1024x256 : Shape := ⟨2, ![1024, 256]⟩
abbrev S1024x1024 : Shape := ⟨2, ![1024, 1024]⟩

abbrev nBuf : Space → Nat
  | .hbm => 23
  | .vmem => 13
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256x256, .f32⟩
  | .hbm, ⟨14, _⟩ => ⟨S256, .f32⟩
  | .hbm, ⟨15, _⟩ => ⟨S256x1024, .f32⟩
  | .hbm, ⟨16, _⟩ => ⟨S256x1024, .bf16⟩
  | .hbm, ⟨17, _⟩ => ⟨S256x1024, .f32⟩
  | .hbm, ⟨18, _⟩ => ⟨S256x1024, .bf16⟩
  | .hbm, ⟨19, _⟩ => ⟨S1024, .f32⟩
  | .hbm, ⟨20, _⟩ => ⟨S1x1024, .f32⟩
  | .hbm, ⟨21, _⟩ => ⟨S65536x256, .f32⟩
  | .hbm, ⟨22, _⟩ => ⟨S65536x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c1024_i32 : BitVec 32 := 1024#32
  let v6 : BitVec 32 := Scalar.muli c0_i32 c1024_i32
  v6
def k0_off1 (c0_i32 : BitVec 32) : Fin 2 → Nat :=
  let c1024_i32 : BitVec 32 := 1024#32
  let v6 : BitVec 32 := Scalar.muli c0_i32 c1024_i32
  let v7 : BitVec 32 := v6
  let v8 : Index := Scalar.indexCast v7
  let c0_5 : Index := 0#32
  ![v8.toNat, 0]
def k0_mult2 : BitVec 32 :=
  let c1_i32 : BitVec 32 := 1#32
  let c1024_i32_11 : BitVec 32 := 1024#32
  let v38 : BitVec 32 := Scalar.muli c1_i32 c1024_i32_11
  v38
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S256x256_S256x256_S256x256_S256x256_S256x1024_d1 : Shape.Concatenates [S256x256, S256x256, S256x256, S256x256] S256x1024 1
  bitsLt_bf16_f32 : FTy.bits .bf16 < FTy.bits .f32
  concatenates_S256_S256_S256_S256_S1024_d0 : Shape.Concatenates [S256, S256, S256, S256] S1024 0
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  h_S1024x256 : 0 < S1024x256.numel
  broadcasts_S1x1024_S1024x1024 : S1x1024.Broadcasts S1024x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  dot_S1024x256_S256x1024_S1024x1024_1_0_0_1_n_n_wf : DotDims.WF S1024x256 S256x1024 S1024x1024 [1] [0] [0] [1] [] []
  hrank0 : 0 < grid0.rank
  k0_mult1_dvd : 1024 ∣ k0_mult1.toNat
  k0_off1_inb : ∀ (r : Fin 2), ∀ a, (k0_off1 (BitVec.ofNat 32 r.val)) a + S1024x256.size a ≤ S2048x256.size a
  k0_mult2_dvd : 1024 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S65536x256.size a
  hwx0_1 : ∀ i : grid0.Coords, EltTy.bits .f32 = 32 ∨ (Rect.block (s := S65536x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S65536x256.size a
  hwx0_2 : ∀ i : grid0.Coords, EltTy.bits .f32 = 32 ∨ (Rect.block (s := S65536x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .bf16 = 32 ∨ (Rect.block (s := S256x1024) S256x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S65536x256.size a
  hwx0_6 : ∀ i : grid0.Coords, EltTy.bits .f32 = 32 ∨ (Rect.block (s := S65536x256) S2048x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S65536x256.size a
  hwx0_7 : ∀ i : grid0.Coords, EltTy.bits .f32 = 32 ∨ (Rect.block (s := S65536x256) S2048x256.size (cc0_transform_7 i) (hinb0_7 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S2048x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S2048x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x256 : Shape := ⟨2, ![256, 256]⟩
abbrev S256 : Shape := ⟨1, ![256]⟩
abbrev S256x1024 : Shape := ⟨2, ![256, 1024]⟩
abbrev S1024 : Shape := ⟨1, ![1024]⟩
abbrev S65536x1024 : Shape := ⟨2, ![65536, 1024]⟩
abbrev S1x1024 : Shape := ⟨2, ![1, 1024]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256x256, .f32⟩
  | .hbm, ⟨14, _⟩ => ⟨S256, .f32⟩
  | .hbm, ⟨15, _⟩ => ⟨S256x1024, .f32⟩
  | .hbm, ⟨16, _⟩ => ⟨S256x1024, .f32⟩
  | .hbm, ⟨17, _⟩ => ⟨S1024, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S1x1024, .f32⟩
  | .hbm, ⟨22, _⟩ => ⟨S65536x1024, .f32⟩
  | .hbm, ⟨23, _⟩ => ⟨S65536x1024, .f32⟩
  | .hbm, ⟨24, _⟩ => ⟨S65536x256, .f32⟩
  | .hbm, ⟨25, _⟩ => ⟨S65536x256, .f32⟩
  | .hbm, ⟨26, _⟩ => ⟨S65536x256, .f32⟩
  | .hbm, ⟨27, _⟩ => ⟨S65536x256, .f32⟩
  | .hbm, ⟨28, _⟩ => ⟨S65536x256, .f32⟩
  | .hbm, ⟨29, _⟩ => ⟨S65536x256, .f32⟩
  | .hbm, ⟨30, _⟩ => ⟨S_, .f32⟩
  | .hbm, ⟨31, _⟩ => ⟨S65536x256, .f32⟩
  | .hbm, ⟨32, _⟩ => ⟨S65536x256, .f32⟩
  | .hbm, ⟨33, _⟩ => ⟨S_, .f32⟩
  | .hbm, ⟨34, _⟩ => ⟨S65536x256, .f32⟩
  | .hbm, ⟨35, _⟩ => ⟨S65536x256, .f32⟩
  | .hbm, ⟨36, _⟩ => ⟨S65536x256, .f32⟩
  | .hbm, ⟨37, _⟩ => ⟨S65536x256, .f32⟩
  | .hbm, ⟨38, _⟩ => ⟨S_, .f32⟩
  | .hbm, ⟨39, _⟩ => ⟨S65536x256, .f32⟩
  | .hbm, ⟨40, _⟩ => ⟨S65536x256, .f32⟩
  | .hbm, ⟨41, _⟩ => ⟨S_, .f32⟩
  | .hbm, ⟨42, _⟩ => ⟨S65536x256, .f32⟩
  | .hbm, ⟨43, _⟩ => ⟨S65536x256, .f32⟩
  | .hbm, ⟨44, _⟩ => ⟨S65536x256, .f32⟩
  | .hbm, ⟨45, _⟩ => ⟨S65536x256, .f32⟩
  | .hbm, ⟨46, _⟩ => ⟨S_, .f32⟩
  | .hbm, ⟨47, _⟩ => ⟨S65536x256, .f32⟩
  | .hbm, ⟨48, _⟩ => ⟨S65536x256, .f32⟩
  | .hbm, ⟨49, _⟩ => ⟨S_, .f32⟩
  | .hbm, ⟨50, _⟩ => ⟨S65536x256, .f32⟩
  | .hbm, ⟨51, _⟩ => ⟨S65536x256, .f32⟩
  | .hbm, ⟨52, _⟩ => ⟨S65536x256, .f32⟩
  | .hbm, ⟨53, _⟩ => ⟨S65536x256, .f32⟩
  | .hbm, ⟨54, _⟩ => ⟨S65536x256, .f32⟩
  | .hbm, ⟨55, _⟩ => ⟨S65536x256, .f32⟩
  | .hbm, ⟨56, _⟩ => ⟨S65536x256, .f32⟩
  | .hbm, ⟨57, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  concatenates_S256x256_S256x256_S256x256_S256x256_S256x1024_d1 : Shape.Concatenates [S256x256, S256x256, S256x256, S256x256] S256x1024 1
  concatenates_S256_S256_S256_S256_S1024_d0 : Shape.Concatenates [S256, S256, S256, S256] S1024 0
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  slices_S65536x1024_S65536x256_0_0 : S65536x1024.Slices ![0, 0] S65536x256
  slices_S65536x1024_S65536x256_0_256 : S65536x1024.Slices ![0, 256] S65536x256
  slices_S65536x1024_S65536x256_0_512 : S65536x1024.Slices ![0, 512] S65536x256
  slices_S65536x1024_S65536x256_0_768 : S65536x1024.Slices ![0, 768] S65536x256
  bcast_S_S65536x256 : S_.BroadcastsInDim S65536x256 (![] : Fin 0 → Fin S65536x256.rank)
  dot_S65536x256_S256x1024_S65536x1024_1_0_0_1_n_n_wf : DotDims.WF S65536x256 S256x1024 S65536x1024 [1] [0] [0] [1] [] []

variable [Facts₀]

def dot_S65536x256_S256x1024_S65536x1024_1_0_0_1_n_n : DotDims S65536x256 S256x1024 S65536x1024 where
  lhsContracting := [1]
  rhsContracting := [0]
  lhsNonContracting := [0]
  rhsNonContracting := [1]
  lhsBatch := []
  rhsBatch := []
  wf := dot_S65536x256_S256x1024_S65536x1024_1_0_0_1_n_n_wf

class Facts : Prop extends Facts₀ where

variable [Facts]
-- ==== Proof.WordPoint.lean ====
/-
  One grid point of the LSTM cell, as separation-logic triple.

  The body works on a block of 2048 rows in two halves of 1024 rows. For each half it loads the rows of x and h,
  multiplies them by the resident weight blocks, adds the bias row, cuts the 1024 columns into the four gates and
  stores the new cell state into the same rows of one output buffer and the new hidden state into the same rows of
  the other. The two stores into an output buffer go through the rectangles of rows 0–1023 and rows 1024–2047, which
  tile the 2048 × 256 buffer: after the body the buffer therefore holds, whatever it held before, the second half's
  value on the lower rows and the first half's value on the upper rows (`cellOut`, `hiddenOut`), each a function of
  what the six input buffers read. The loads the body makes from the output buffers are never used.
-/
import proofs.«177137_j83897891160514_2_alg».proof.Proof.Gen.Kernel.Launch
import proofs.«177137_j83897891160514_2_alg».proof.Proof.Gen.Kernel.Skeleton
import proofs.«177137_j83897891160514_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-! ## The rectangles the body reads and writes through -/

/-- Rows 0–1023 of a 2048 × 256 buffer. -/
abbrev upper : Rect S2048x256 := Rect.unit (s := S2048x256) ![0, 0] S1024x256.size (by decide)
/-- Rows 1024–2047 of a 2048 × 256 buffer. -/
abbrev lower : Rect S2048x256 := Rect.unit (s := S2048x256) ![1024, 0] S1024x256.size (by decide)
/-- The whole of a 256 × 1024 weight buffer. -/
abbrev allW : Rect S256x1024 := Rect.unit (s := S256x1024) ![0, 0] S256x1024.size (by decide)
/-- The whole of the 1 × 1024 bias buffer. -/
abbrev allB : Rect S1x1024 := Rect.unit (s := S1x1024) ![0, 0] S1x1024.size (by decide)

/-! ## What the body leaves in the two output buffers -/

/-- The new cell state of the block: rows 1024–2047 from the lower rows of x, h, c, rows 0–1023 from their upper rows
    (the later store listed first). -/
def cellOut (x cs h : Vec F S2048x256 .f32) (w u : Vec F S256x1024 .bf16) (b : Vec F S1x1024 .f32) : Vec F S2048x256 .f32 :=
  View.canon [⟨lower, k0_pay2 (k0_pay4 (View.ld w allW)) (k0_pay5 (View.ld u allW)) (k0_pay6 (View.ld b allB)) (View.ld x lower) (View.ld h lower) (View.ld cs lower)⟩,
    ⟨upper, k0_pay8 (View.ld w allW) (View.ld u allW) (View.ld b allB) (View.ld x upper) (View.ld h upper) (View.ld cs upper)⟩]

/-- The new hidden state of the block, in the same two pieces. -/
def hiddenOut (x cs h : Vec F S2048x256 .f32) (w u : Vec F S256x1024 .bf16) (b : Vec F S1x1024 .f32) : Vec F S2048x256 .f32 :=
  View.canon [⟨lower, k0_pay3 (k0_pay4 (View.ld w allW)) (k0_pay5 (View.ld u allW)) (k0_pay6 (View.ld b allB)) (View.ld x lower) (View.ld h lower) (View.ld cs lower)⟩,
    ⟨upper, k0_pay9 (View.ld w allW) (View.ld u allW) (View.ld b allB) (View.ld x upper) (View.ld h upper) (View.ld cs upper)⟩]

/-- The two row ranges tile the buffer, so every index lies in one of the two pieces. -/
theorem halves_cover (p q : Vec F S1024x256 .f32) (y : S2048x256.Idx) :
    ∃ pc ∈ ([⟨lower, p⟩, ⟨upper, q⟩] : List (View.Piece (Elt F) S2048x256 .f32)), y ∈ pc.1.set :=
  View.cover_of_tiled [⟨lower, p⟩, ⟨upper, q⟩] S1024x256.size (by rfl) y

/-! ## The body's triple -/

set_option maxHeartbeats 4000000 in
/-- On whole staging buffers, the six inputs reading `x cs h w u b` and the two outputs holding anything, the body
    runs to its end without a fault, leaves the inputs as they were and the outputs at `cellOut` and `hiddenOut`. -/
theorem sound_kernel (c : Dev nD) (E : Set ℕ) (i : grid0.Coords)
    (arg1 : Memref sig .tc .vmem S2048x256 .f32) (harg1 : arg1.IsWhole) (arg2 : Memref sig .tc .vmem S2048x256 .f32) (harg2 : arg2.IsWhole)
    (arg3 : Memref sig .tc .vmem S2048x256 .f32) (harg3 : arg3.IsWhole) (arg4 : Memref sig .tc .vmem S256x1024 .bf16) (harg4 : arg4.IsWhole)
    (arg5 : Memref sig .tc .vmem S256x1024 .bf16) (harg5 : arg5.IsWhole) (arg6 : Memref sig .tc .vmem S1x1024 .f32) (harg6 : arg6.IsWhole)
    (arg7 : Memref sig .tc .vmem S2048x256 .f32) (harg7 : arg7.IsWhole) (arg8 : Memref sig .tc .vmem S2048x256 .f32) (harg8 : arg8.IsWhole)
    (x cs h : Vec F S2048x256 .f32) (w u : Vec F S256x1024 .bf16) (b : Vec F S1x1024 .f32) (K : PUnit → sProp 𝕄) :
    iprop(owns (c : Thread nD τ) arg1 fullShare x ∗ owns (c : Thread nD τ) arg2 fullShare cs ∗ owns (c : Thread nD τ) arg3 fullShare h
        ∗ owns (c : Thread nD τ) arg4 fullShare w ∗ owns (c : Thread nD τ) arg5 fullShare u ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare cs ∗ owns (c : Thread nD τ) arg3 fullShare h
            ∗ owns (c : Thread nD τ) arg4 fullShare w ∗ owns (c : Thread nD τ) arg5 fullShare u ∗ owns (c : Thread nD τ) arg6 fullShare b
            ∗ owns (c : Thread nD τ) arg7 fullShare (cellOut x cs h w u b) ∗ owns (c : Thread nD τ) arg8 fullShare (hiddenOut x cs h w u b)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (halves_cover _ _)
  iexists _; isplitr
  swap; · iexact H8
  ipureintro
  exact View.read_writes_eq_canon _ _ _ (halves_cover _ _)

end Cert.Kernel.Point

end
-- ==== Proof.WordRegion.lean ====
/-
  The whole run of the LSTM cell's program around its one region.

  Before the region the host lays the four gates' input weights side by side into one 256 × 1024 matrix, does the
  same for the hidden weights, and lays the four bias vectors end to end into one row; none of these operations
  writes an argument. The region then visits 32 blocks of 2048 rows. At every block the staging buffers of x, c and h
  hold that block of rows, the three resident buffers hold the whole weight matrices and the bias row (their block
  index never moves, so they are fetched once and found again at every later point), and the body leaves the two
  output buffers at the block's new cell state and new hidden state, which are written back to rows
  2048·t … 2048·t + 2047 of the two result arrays. Every weakly fair execution therefore terminates without a fault
  with the arguments as they were launched.
-/
import proofs.«177137_j83897891160514_2_alg».proof.Proof.WordPoint

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Point

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- What core `c`'s buffers hold when the region is entered: the launch contents after the six host operations. -/
abbrev V (c : Dev nD) (b : Ref sig .tc) : Buf (Elt F) ((c : Thread nD τ).loc b) := StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the six results of the host operations is found by the region as it was launched. -/
theorem V_kept (c : Dev nD) (r : Ref sig .tc) (h0 : r ≠ main_v0) (h1 : r ≠ main_v1) (h2 : r ≠ main_v2) (h3 : r ≠ main_v3)
    (h4 : r ≠ main_v4) (h5 : r ≠ main_v5) : V m c r = m ((c : Thread nD τ).loc r) :=
  StableHlo.after_of_forall_not_mem (b := Proc.devRef .tc r) _ _ (List.forall_iff_forall_mem.mp (by
    simp only [hostOps0, List.Forall, StableHlo.nary_writes, StableHlo.unary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not: where it is not
    fetched its block index has not moved, and the body left the buffer as it found it. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body at point `t` each input buffer at its block, the two output
    buffers at the block's new cell state and new hidden state; nothing kept from point to point, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => cellOut (iblk m c 0 t) (iblk m c 1 t) (iblk m c 2 t) (iblk m c 3 t) (iblk m c 4 t) (iblk m c 5 t)
    | ⟨7, _⟩ => hiddenOut (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = cellOut (iblk m c 0 t) (iblk m c 1 t) (iblk m c 2 t) (iblk m c 3 t) (iblk m c 4 t) (iblk m c 5 t) := by dsimp only [dats]
theorem after_7 (c : Dev nD) (t : Fin cfg0.N) : (dats m 0 c).after 7 t = hiddenOut (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d

/-! ## The body at a grid point -/

/-- What the body is handed at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1000000 in
/-- The body at any point: the input buffers hold their blocks, so the body's triple applies; the invariant and what
    the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates without a fault; each array
    of the region then holds what the proof data say (an input its entry contents, a result the blocks the body left,
    written back one by one) and every other buffer what it held when the region was entered. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they were launched: x, c and h are only read through their windows, the twelve weight and bias
    arguments are touched by nothing but the host operations, which only read them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨
      ((h c).1 0).trans (((dats m 0 c).arrAt_in 0 rfl _).trans ((A_eq m c 0).trans (V_kept m c main_arg0 (by decide) (by decide) (by decide) (by decide) (by decide) (by decide)))),
      ((h c).1 1).trans (((dats m 0 c).arrAt_in 1 rfl _).trans ((A_eq m c 1).trans (V_kept m c main_arg1 (by decide) (by decide) (by decide) (by decide) (by decide) (by decide)))),
      ((h c).1 2).trans (((dats m 0 c).arrAt_in 2 rfl _).trans ((A_eq m c 2).trans (V_kept m c main_arg2 (by decide) (by decide) (by decide) (by decide) (by decide) (by decide)))),
      ((h c).2 main_arg3 (Pipeline.mem_restRefs_of main_arg3 (by decide) (by decide))).trans (V_kept m c main_arg3 (by decide) (by decide) (by decide) (by decide) (by decide) (by decide)),
      ((h c).2 main_arg4 (Pipeline.mem_restRefs_of main_arg4 (by decide) (by decide))).trans (V_kept m c main_arg4 (by decide) (by decide) (by decide) (by decide) (by decide) (by decide)),
      ((h c).2 main_arg5 (Pipeline.mem_restRefs_of main_arg5 (by decide) (by decide))).trans (V_kept m c main_arg5 (by decide) (by decide) (by decide) (by decide) (by decide) (by decide)),
      ((h c).2 main_arg6 (Pipeline.mem_restRefs_of main_arg6 (by decide) (by decide))).trans (V_kept m c main_arg6 (by decide) (by decide) (by decide) (by decide) (by decide) (by decide)),
      ((h c).2 main_arg7 (Pipeline.mem_restRefs_of main_arg7 (by decide) (by decide))).trans (V_kept m c main_arg7 (by decide) (by decide) (by decide) (by decide) (by decide) (by decide)),
      ((h c).2 main_arg8 (Pipeline.mem_restRefs_of main_arg8 (by decide) (by decide))).trans (V_kept m c main_arg8 (by decide) (by decide) (by decide) (by decide) (by decide) (by decide)),
      ((h c).2 main_arg9 (Pipeline.mem_restRefs_of main_arg9 (by decide) (by decide))).trans (V_kept m c main_arg9 (by decide) (by decide) (by decide) (by decide) (by decide) (by decide)),
      ((h c).2 main_arg10 (Pipeline.mem_restRefs_of main_arg10 (by decide) (by decide))).trans (V_kept m c main_arg10 (by decide) (by decide) (by decide) (by decide) (by decide) (by decide)),
      ((h c).2 main_arg11 (Pipeline.mem_restRefs_of main_arg11 (by decide) (by decide))).trans (V_kept m c main_arg11 (by decide) (by decide) (by decide) (by decide) (by decide) (by decide)),
      ((h c).2 main_arg12 (Pipeline.mem_restRefs_of main_arg12 (by decide) (by decide))).trans (V_kept m c main_arg12 (by decide) (by decide) (by decide) (by decide) (by decide) (by decide)),
      ((h c).2 main_arg13 (Pipeline.mem_restRefs_of main_arg13 (by decide) (by decide))).trans (V_kept m c main_arg13 (by decide) (by decide) (by decide) (by decide) (by decide) (by decide)),
      ((h c).2 main_arg14 (Pipeline.mem_restRefs_of main_arg14 (by decide) (by decide))).trans (V_kept m c main_arg14 (by decide) (by decide) (by decide) (by decide) (by decide) (by decide))⟩) (run_main m ρ)

end Cert.Kernel.Region

end
-- ==== Proof.IdealPoint.lean ====
/-
  One grid point of the LSTM cell, as separation-logic triple.

  The body works on a block of 2048 rows in two halves of 1024 rows. For each half it loads the rows of x and h,
  multiplies them by the resident weight blocks, adds the bias row, cuts the 1024 columns into the four gates and
  stores the new cell state into the same rows of one output buffer and the new hidden state into the same rows of
  the other. The two stores into an output buffer go through the rectangles of rows 0–1023 and rows 1024–2047, which
  tile the 2048 × 256 buffer: after the body the buffer therefore holds, whatever it held before, the second half's
  value on the lower rows and the first half's value on the upper rows (`cellOut`, `hiddenOut`), each a function of
  what the six input buffers read. The loads the body makes from the output buffers are never used.
-/
import proofs.«177137_j83897891160514_2_alg».proof.Proof.Gen.KernelIdeal.Launch
import proofs.«177137_j83897891160514_2_alg».proof.Proof.Gen.KernelIdeal.Skeleton
import proofs.«177137_j83897891160514_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-! ## The rectangles the body reads and writes through -/

/-- Rows 0–1023 of a 2048 × 256 buffer. -/
abbrev upper : Rect S2048x256 := Rect.unit (s := S2048x256) ![0, 0] S1024x256.size (by decide)
/-- Rows 1024–2047 of a 2048 × 256 buffer. -/
abbrev lower : Rect S2048x256 := Rect.unit (s := S2048x256) ![1024, 0] S1024x256.size (by decide)
/-- The whole of a 256 × 1024 weight buffer. -/
abbrev allW : Rect S256x1024 := Rect.unit (s := S256x1024) ![0, 0] S256x1024.size (by decide)
/-- The whole of the 1 × 1024 bias buffer. -/
abbrev allB : Rect S1x1024 := Rect.unit (s := S1x1024) ![0, 0] S1x1024.size (by decide)

/-! ## What the body leaves in the two output buffers -/

/-- The new cell state of the block: rows 1024–2047 from the lower rows of x, h, c, rows 0–1023 from their upper rows
    (the later store listed first). -/
def cellOut (x cs h : Vec F S2048x256 .f32) (w u : Vec F S256x1024 .bf16) (b : Vec F S1x1024 .f32) : Vec F S2048x256 .f32 :=
  View.canon [⟨lower, k0_pay2 (k0_pay4 (View.ld w allW)) (k0_pay5 (View.ld u allW)) (k0_pay6 (View.ld b allB)) (View.ld x lower) (View.ld h lower) (View.ld cs lower)⟩,
    ⟨upper, k0_pay8 (View.ld w allW) (View.ld u allW) (View.ld b allB) (View.ld x upper) (View.ld h upper) (View.ld cs upper)⟩]

/-- The new hidden state of the block, in the same two pieces. -/
def hiddenOut (x cs h : Vec F S2048x256 .f32) (w u : Vec F S256x1024 .bf16) (b : Vec F S1x1024 .f32) : Vec F S2048x256 .f32 :=
  View.canon [⟨lower, k0_pay3 (k0_pay4 (View.ld w allW)) (k0_pay5 (View.ld u allW)) (k0_pay6 (View.ld b allB)) (View.ld x lower) (View.ld h lower) (View.ld cs lower)⟩,
    ⟨upper, k0_pay9 (View.ld w allW) (View.ld u allW) (View.ld b allB) (View.ld x upper) (View.ld h upper) (View.ld cs upper)⟩]

/-- The two row ranges tile the buffer, so every index lies in one of the two pieces. -/
theorem halves_cover (p q : Vec F S1024x256 .f32) (y : S2048x256.Idx) :
    ∃ pc ∈ ([⟨lower, p⟩, ⟨upper, q⟩] : List (View.Piece (Elt F) S2048x256 .f32)), y ∈ pc.1.set :=
  View.cover_of_tiled [⟨lower, p⟩, ⟨upper, q⟩] S1024x256.size (by rfl) y

/-! ## The body's triple -/

set_option maxHeartbeats 4000000 in
/-- On whole staging buffers, the six inputs reading `x cs h w u b` and the two outputs holding anything, the body
    runs to its end without a fault, leaves the inputs as they were and the outputs at `cellOut` and `hiddenOut`. -/
theorem sound_kernel (c : Dev nD) (E : Set ℕ) (i : grid0.Coords)
    (arg1 : Memref sig .tc .vmem S2048x256 .f32) (harg1 : arg1.IsWhole) (arg2 : Memref sig .tc .vmem S2048x256 .f32) (harg2 : arg2.IsWhole)
    (arg3 : Memref sig .tc .vmem S2048x256 .f32) (harg3 : arg3.IsWhole) (arg4 : Memref sig .tc .vmem S256x1024 .bf16) (harg4 : arg4.IsWhole)
    (arg5 : Memref sig .tc .vmem S256x1024 .bf16) (harg5 : arg5.IsWhole) (arg6 : Memref sig .tc .vmem S1x1024 .f32) (harg6 : arg6.IsWhole)
    (arg7 : Memref sig .tc .vmem S2048x256 .f32) (harg7 : arg7.IsWhole) (arg8 : Memref sig .tc .vmem S2048x256 .f32) (harg8 : arg8.IsWhole)
    (x cs h : Vec F S2048x256 .f32) (w u : Vec F S256x1024 .bf16) (b : Vec F S1x1024 .f32) (K : PUnit → sProp 𝕄) :
    iprop(owns (c : Thread nD τ) arg1 fullShare x ∗ owns (c : Thread nD τ) arg2 fullShare cs ∗ owns (c : Thread nD τ) arg3 fullShare h
        ∗ owns (c : Thread nD τ) arg4 fullShare w ∗ owns (c : Thread nD τ) arg5 fullShare u ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare cs ∗ owns (c : Thread nD τ) arg3 fullShare h
            ∗ owns (c : Thread nD τ) arg4 fullShare w ∗ owns (c : Thread nD τ) arg5 fullShare u ∗ owns (c : Thread nD τ) arg6 fullShare b
            ∗ owns (c : Thread nD τ) arg7 fullShare (cellOut x cs h w u b) ∗ owns (c : Thread nD τ) arg8 fullShare (hiddenOut x cs h w u b)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (halves_cover _ _)
  iexists _; isplitr
  swap; · iexact H8
  ipureintro
  exact View.read_writes_eq_canon _ _ _ (halves_cover _ _)

end Cert.KernelIdeal.Point

end
-- ==== Proof.IdealRegion.lean ====
/-
  The whole run of the LSTM cell's program around its one region.

  Before the region the host lays the four gates' input weights side by side into one 256 × 1024 matrix, does the
  same for the hidden weights, and lays the four bias vectors end to end into one row; none of these operations
  writes an argument. The region then visits 32 blocks of 2048 rows. At every block the staging buffers of x, c and h
  hold that block of rows, the three resident buffers hold the whole weight matrices and the bias row (their block
  index never moves, so they are fetched once and found again at every later point), and the body leaves the two
  output buffers at the block's new cell state and new hidden state, which are written back to rows
  2048·t … 2048·t + 2047 of the two result arrays. Every weakly fair execution therefore terminates without a fault
  with the arguments as they were launched.
-/
import proofs.«177137_j83897891160514_2_alg».proof.Proof.IdealPoint

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Point

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- What core `c`'s buffers hold when the region is entered: the launch contents after the six host operations. -/
abbrev V (c : Dev nD) (b : Ref sig .tc) : Buf (Elt F) ((c : Thread nD τ).loc b) := StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the six results of the host operations is found by the region as it was launched. -/
theorem V_kept (c : Dev nD) (r : Ref sig .tc) (h0 : r ≠ main_v0) (h1 : r ≠ main_v1) (h2 : r ≠ main_v2) (h3 : r ≠ main_v3)
    (h4 : r ≠ main_v4) (h5 : r ≠ main_v5) : V m c r = m ((c : Thread nD τ).loc r) :=
  StableHlo.after_of_forall_not_mem (b := Proc.devRef .tc r) _ _ (List.forall_iff_forall_mem.mp (by
    simp only [hostOps0, List.Forall, StableHlo.nary_writes, StableHlo.unary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not: where it is not
    fetched its block index has not moved, and the body left the buffer as it found it. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body at point `t` each input buffer at its block, the two output
    buffers at the block's new cell state and new hidden state; nothing kept from point to point, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => cellOut (iblk m c 0 t) (iblk m c 1 t) (iblk m c 2 t) (iblk m c 3 t) (iblk m c 4 t) (iblk m c 5 t)
    | ⟨7, _⟩ => hiddenOut (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = cellOut (iblk m c 0 t) (iblk m c 1 t) (iblk m c 2 t) (iblk m c 3 t) (iblk m c 4 t) (iblk m c 5 t) := by dsimp only [dats]
theorem after_7 (c : Dev nD) (t : Fin cfg0.N) : (dats m 0 c).after 7 t = hiddenOut (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d

/-! ## The body at a grid point -/

/-- What the body is handed at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1000000 in
/-- The body at any point: the input buffers hold their blocks, so the body's triple applies; the invariant and what
    the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates without a fault; each array
    of the region then holds what the proof data say (an input its entry contents, a result the blocks the body left,
    written back one by one) and every other buffer what it held when the region was entered. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they were launched: x, c and h are only read through their windows, the twelve weight and bias
    arguments are touched by nothing but the host operations, which only read them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨
      ((h c).1 0).trans (((dats m 0 c).arrAt_in 0 rfl _).trans ((A_eq m c 0).trans (V_kept m c main_arg0 (by decide) (by decide) (by decide) (by decide) (by decide) (by decide)))),
      ((h c).1 1).trans (((dats m 0 c).arrAt_in 1 rfl _).trans ((A_eq m c 1).trans (V_kept m c main_arg1 (by decide) (by decide) (by decide) (by decide) (by decide) (by decide)))),
      ((h c).1 2).trans (((dats m 0 c).arrAt_in 2 rfl _).trans ((A_eq m c 2).trans (V_kept m c main_arg2 (by decide) (by decide) (by decide) (by decide) (by decide) (by decide)))),
      ((h c).2 main_arg3 (Pipeline.mem_restRefs_of main_arg3 (by decide) (by decide))).trans (V_kept m c main_arg3 (by decide) (by decide) (by decide) (by decide) (by decide) (by decide)),
      ((h c).2 main_arg4 (Pipeline.mem_restRefs_of main_arg4 (by decide) (by decide))).trans (V_kept m c main_arg4 (by decide) (by decide) (by decide) (by decide) (by decide) (by decide)),
      ((h c).2 main_arg5 (Pipeline.mem_restRefs_of main_arg5 (by decide) (by decide))).trans (V_kept m c main_arg5 (by decide) (by decide) (by decide) (by decide) (by decide) (by decide)),
      ((h c).2 main_arg6 (Pipeline.mem_restRefs_of main_arg6 (by decide) (by decide))).trans (V_kept m c main_arg6 (by decide) (by decide) (by decide) (by decide) (by decide) (by decide)),
      ((h c).2 main_arg7 (Pipeline.mem_restRefs_of main_arg7 (by decide) (by decide))).trans (V_kept m c main_arg7 (by decide) (by decide) (by decide) (by decide) (by decide) (by decide)),
      ((h c).2 main_arg8 (Pipeline.mem_restRefs_of main_arg8 (by decide) (by decide))).trans (V_kept m c main_arg8 (by decide) (by decide) (by decide) (by decide) (by decide) (by decide)),
      ((h c).2 main_arg9 (Pipeline.mem_restRefs_of main_arg9 (by decide) (by decide))).trans (V_kept m c main_arg9 (by decide) (by decide) (by decide) (by decide) (by decide) (by decide)),
      ((h c).2 main_arg10 (Pipeline.mem_restRefs_of main_arg10 (by decide) (by decide))).trans (V_kept m c main_arg10 (by decide) (by decide) (by decide) (by decide) (by decide) (by decide)),
      ((h c).2 main_arg11 (Pipeline.mem_restRefs_of main_arg11 (by decide) (by decide))).trans (V_kept m c main_arg11 (by decide) (by decide) (by decide) (by decide) (by decide) (by decide)),
      ((h c).2 main_arg12 (Pipeline.mem_restRefs_of main_arg12 (by decide) (by decide))).trans (V_kept m c main_arg12 (by decide) (by decide) (by decide) (by decide) (by decide) (by decide)),
      ((h c).2 main_arg13 (Pipeline.mem_restRefs_of main_arg13 (by decide) (by decide))).trans (V_kept m c main_arg13 (by decide) (by decide) (by decide) (by decide) (by decide) (by decide)),
      ((h c).2 main_arg14 (Pipeline.mem_restRefs_of main_arg14 (by decide) (by decide))).trans (V_kept m c main_arg14 (by decide) (by decide) (by decide) (by decide) (by decide) (by decide))⟩) (run_main m ρ)

end Cert.KernelIdeal.Region

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«177137_j83897891160514_2_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«177137_j83897891160514_2_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibBiasSilu.lean ====
/-
  A bias row added to every row of a matrix, alone or followed by x ↦ x · σ(x) with σ the logistic function, on the
  extended reals: the two functions, the kernel body's spelling of each (the row re-shaped in place, broadcast down
  the rows, added; then the product with the logistic of the sum), the reference's spelling (the bias vector broadcast
  into a 1×k row and then into the n×k array, added; then the product with 1 / (1 + exp (−v)) written with broadcast
  ones), and the fact that an entry of either depends on one entry of the matrix. On the extended reals the logistic
  function IS 1 / (1 + exp (−v)), so nothing is asked of the entries. Nothing here mentions a program.
-/
import Idealize.ShloMosaic.PureOps.Ideal.Laws
import Idealize.ShloMosaic.Lib.ValueIdx
import Idealize.ShloMosaic.Lib.Pipeline.Value
import proofs.«177137_j83897891160514_2_alg».proof.Proof.LibBlockReads
import proofs.«177137_j83897891160514_2_alg».proof.Proof.LibRowVector

noncomputable section

namespace Cert.Lib.BiasSilu

open Idealize.ShloMosaic Idealize.ShloMosaic.ValueIdx Cert.Lib.RowVector

variable {n n' k : Nat}

/-- The word 0x3F800000 is the number one. -/
theorem one_f32 : Ideal.ofBits .f32 0x3F800000#32 = 1 := by
  simp [Ideal.ofBits, Ideal.ieee, -EReal.coe_mul]; norm_num

/-- x · σ(x). -/
def silu (v : EReal) : EReal := v * Ideal.logistic v

/-- Entry (p, q) is X(p, q) + b(0, q). -/
def biasAdd (X : (⟨2, ![n, k]⟩ : Shape).Idx → EReal) (b : (⟨2, ![1, k]⟩ : Shape).Idx → EReal) :
    (⟨2, ![n, k]⟩ : Shape).Idx → EReal :=
  fun i => X i + b (ix2 (0 : Fin 1) (⟨(i 1).val, idx2_lt1 i⟩ : Fin k))

theorem biasAdd_apply (X : (⟨2, ![n, k]⟩ : Shape).Idx → EReal) (b : (⟨2, ![1, k]⟩ : Shape).Idx → EReal)
    (p : Fin n) (q : Fin k) : biasAdd X b (ix2 p q) = X (ix2 p q) + b (ix2 0 q) := rfl

/-- Entry (p, q) is s · σ(s) for s = X(p, q) + b(0, q). -/
def biasSilu (X : (⟨2, ![n, k]⟩ : Shape).Idx → EReal) (b : (⟨2, ![1, k]⟩ : Shape).Idx → EReal) :
    (⟨2, ![n, k]⟩ : Shape).Idx → EReal :=
  fun i => silu (biasAdd X b i)

theorem biasSilu_apply (X : (⟨2, ![n, k]⟩ : Shape).Idx → EReal) (b : (⟨2, ![1, k]⟩ : Shape).Idx → EReal)
    (p : Fin n) (q : Fin k) : biasSilu X b (ix2 p q) = silu (X (ix2 p q) + b (ix2 0 q)) := rfl

/-- An entry depends on one entry of the matrix: equal entries give equal results. -/
theorem biasAdd_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasAdd X' b (ix2 p' q) = biasAdd X b (ix2 p q) := by
  rw [biasAdd_apply, biasAdd_apply, h]

theorem biasSilu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasSilu X' b (ix2 p' q) = biasSilu X b (ix2 p q) := by
  rw [biasSilu_apply, biasSilu_apply, h]

/-- The same two facts with the two indices as variables: the index y inside a block of rows and the index i of the
    whole array it sits at, which share their column. -/
theorem biasAdd_at (X : (⟨2, ![n, k]⟩ : Shape).Idx → EReal) (X' : (⟨2, ![n', k]⟩ : Shape).Idx → EReal)
    (b : (⟨2, ![1, k]⟩ : Shape).Idx → EReal) (y : (⟨2, ![n', k]⟩ : Shape).Idx) (i : (⟨2, ![n, k]⟩ : Shape).Idx)
    (hcol : (y 1).val = (i 1).val) (h : X' y = X i) : biasAdd X' b y = biasAdd X b i := by
  obtain ⟨p', q', rfl⟩ : ∃ (p' : Fin n') (q' : Fin k), y = ix2 p' q' := ⟨y 0, y 1, eq_ix2 y⟩
  obtain ⟨p, q, rfl⟩ : ∃ (p : Fin n) (q : Fin k), i = ix2 p q := ⟨i 0, i 1, eq_ix2 i⟩
  have hq : q' = q := Fin.ext hcol
  subst hq
  exact biasAdd_rows X X' b p' p q' h

theorem biasSilu_at (X : (⟨2, ![n, k]⟩ : Shape).Idx → EReal) (X' : (⟨2, ![n', k]⟩ : Shape).Idx → EReal)
    (b : (⟨2, ![1, k]⟩ : Shape).Idx → EReal) (y : (⟨2, ![n', k]⟩ : Shape).Idx) (i : (⟨2, ![n, k]⟩ : Shape).Idx)
    (hcol : (y 1).val = (i 1).val) (h : X' y = X i) : biasSilu X' b y = biasSilu X b i :=
  congrArg silu (biasAdd_at X X' b y i hcol h)

/-- A change of float format is the identity on the extended reals, for a whole vector. -/
theorem truncf_id {s : Shape} {φ ψ : FTy} (a : FVec Ideal s φ) (h : ψ.bits < φ.bits) :
    (truncf ψ a h : FVec Ideal s ψ) = a := rfl

/-- The kernel body's spelling of the bias row added. -/
theorem body_add_eq (M : FVec Ideal ⟨2, ![n, k]⟩ .f32) (v : FVec Ideal ⟨1, ![k]⟩ .f32)
    (hsc : (⟨1, ![k]⟩ : Shape).ShapeCasts ⟨2, ![1, k]⟩) (hb : (⟨2, ![1, k]⟩ : Shape).Broadcasts ⟨2, ![n, k]⟩) :
    addf M (broadcastTo ⟨2, ![n, k]⟩ (shapeCast ⟨2, ![1, k]⟩ v hsc) hb) = biasAdd M (asRow v) := by
  funext i
  obtain ⟨p, q, rfl⟩ : ∃ (p : Fin n) (q : Fin k), i = ix2 p q := ⟨i 0, i 1, eq_ix2 i⟩
  rw [addf_apply, shapeCast_eq_asRow, Cert.Lib.BlockReads.broadcast_row_apply]
  rfl

/-- The kernel body's spelling of the bias row added and the result multiplied by its logistic. -/
theorem body_silu_eq (M : FVec Ideal ⟨2, ![n, k]⟩ .f32) (v : FVec Ideal ⟨1, ![k]⟩ .f32)
    (hsc : (⟨1, ![k]⟩ : Shape).ShapeCasts ⟨2, ![1, k]⟩) (hb : (⟨2, ![1, k]⟩ : Shape).Broadcasts ⟨2, ![n, k]⟩) :
    mulf (addf M (broadcastTo ⟨2, ![n, k]⟩ (shapeCast ⟨2, ![1, k]⟩ v hsc) hb))
      (logistic (addf M (broadcastTo ⟨2, ![n, k]⟩ (shapeCast ⟨2, ![1, k]⟩ v hsc) hb))) = biasSilu M (asRow v) := by
  rw [body_add_eq]
  rfl

/-- The reference's spelling of the bias vector added to every row. -/
theorem host_add_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1]) :
    addf X (broadcastInDim ⟨2, ![n, k]⟩ ![0, 1] h2 (broadcastInDim ⟨2, ![1, k]⟩ ![1] h1 b)) = biasAdd X (asRow b) := by
  funext i
  obtain ⟨p, q, rfl⟩ : ∃ (p : Fin n) (q : Fin k), i = ix2 p q := ⟨i 0, i 1, eq_ix2 i⟩
  rw [addf_apply, bcastInDim_rows_apply, bcastInDim_eq_asRow]
  rfl

/-- The reference's spelling of v ↦ v · (1 / (1 + exp (−v))), the ones broadcast from the word of the number one. -/
theorem host_silu_of (v : FVec Ideal ⟨2, ![n, k]⟩ .f32)
    (h3 h4 : (⟨0, ![]⟩ : Shape).BroadcastsInDim ⟨2, ![n, k]⟩ ![]) :
    mulf v (Host.divf (broadcastInDim ⟨2, ![n, k]⟩ ![] h3 (constant (F := Ideal) ⟨0, ![]⟩ .f32 0x3F800000#32))
      (addf (broadcastInDim ⟨2, ![n, k]⟩ ![] h4 (constant (F := Ideal) ⟨0, ![]⟩ .f32 0x3F800000#32))
        (Host.exp (Host.negf v)))) = fun i => silu (v i) := by
  funext i
  show v i * Ideal.div (broadcastInDim ⟨2, ![n, k]⟩ ![] h3 (constant (F := Ideal) ⟨0, ![]⟩ .f32 0x3F800000#32) i)
      (broadcastInDim ⟨2, ![n, k]⟩ ![] h4 (constant (F := Ideal) ⟨0, ![]⟩ .f32 0x3F800000#32) i + Ideal.exp (-(v i))) = _
  rw [bcastInDim_scalar_apply]
  show v i * Ideal.div (Ideal.ofBits .f32 0x3F800000#32) (Ideal.ofBits .f32 0x3F800000#32 + Ideal.exp (-(v i))) = _
  rw [one_f32]
  rfl

/-- The reference's spelling of the bias vector added and the result multiplied by 1 / (1 + exp (−·)). -/
theorem host_silu_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 h4 : (⟨0, ![]⟩ : Shape).BroadcastsInDim ⟨2, ![n, k]⟩ ![]) :
    mulf (addf X (broadcastInDim ⟨2, ![n, k]⟩ ![0, 1] h2 (broadcastInDim ⟨2, ![1, k]⟩ ![1] h1 b)))
      (Host.divf (broadcastInDim ⟨2, ![n, k]⟩ ![] h3 (constant (F := Ideal) ⟨0, ![]⟩ .f32 0x3F800000#32))
        (addf (broadcastInDim ⟨2, ![n, k]⟩ ![] h4 (constant (F := Ideal) ⟨0, ![]⟩ .f32 0x3F800000#32))
          (Host.exp (Host.negf (addf X (broadcastInDim ⟨2, ![n, k]⟩ ![0, 1] h2 (broadcastInDim ⟨2, ![1, k]⟩ ![1] h1 b)))))))
      = biasSilu X (asRow b) := by
  rw [host_silu_of, host_add_eq]
  rfl

end Cert.Lib.BiasSilu

end
-- ==== Proof.LibGateForms.lean ====
/-
  Two readings that gated cells (sigmoid and tanh gates cut out of one wide array) need, on the extended reals.

  (1) The logistic function as a tensor program spells it — 1 / (1 + exp (−v)), each of the two ones stretched to v's
      shape from a scalar holding the word 0x3F800000 of the number one — is, entry by entry, the logistic function of
      v, for an array v of ANY shape. On the extended reals this holds at the infinities as well (exp (−v) is 0 or +∞
      there and the quotient 1 or 0), so nothing is asked of v.
  (2) A group of k consecutive columns cut out of an n × N array by a unit-stride slice at column `off` reads, at (p, q),
      the array at (p, off + q): all four extents are variables.
  Nothing here mentions a program.
-/
import Idealize.ShloMosaic.PureOps.Ideal.Laws
import Idealize.ShloMosaic.Lib.ValueIdx
import Idealize.ShloMosaic.Lib.Pipeline.Value
import proofs.«177137_j83897891160514_2_alg».proof.Proof.LibRowVector
import proofs.«177137_j83897891160514_2_alg».proof.Proof.LibBiasSilu

noncomputable section

namespace Cert.Lib.GateForms

open Idealize.ShloMosaic Idealize.ShloMosaic.ValueIdx Cert.Lib.RowVector Cert.Lib.BiasSilu

/-- 1 / (1 + exp (−v)), the ones stretched from the word of the number one, is the logistic function of v entry by
    entry, on an array of any shape. -/
theorem host_logistic {s : Shape} (v : FVec Ideal s .f32) (h3 h4 : (⟨0, ![]⟩ : Shape).BroadcastsInDim s ![]) :
    Host.divf (broadcastInDim s ![] h3 (constant (F := Ideal) ⟨0, ![]⟩ .f32 0x3F800000#32))
      (addf (broadcastInDim s ![] h4 (constant (F := Ideal) ⟨0, ![]⟩ .f32 0x3F800000#32)) (Host.exp (Host.negf v)))
      = fun i => Ideal.logistic (v i) := by
  funext i
  show Ideal.div (broadcastInDim s ![] h3 (constant (F := Ideal) ⟨0, ![]⟩ .f32 0x3F800000#32) i)
      (broadcastInDim s ![] h4 (constant (F := Ideal) ⟨0, ![]⟩ .f32 0x3F800000#32) i + Ideal.exp (-(v i))) = _
  rw [bcastInDim_scalar_apply]
  show Ideal.div (Ideal.ofBits .f32 0x3F800000#32) (Ideal.ofBits .f32 0x3F800000#32 + Ideal.exp (-(v i))) = _
  rw [one_f32]
  rfl

/-- The slice of k columns starting at column `off` of an n × N array reads, at (p, q), the array at (p, off + q). -/
theorem slice_cols_apply {α : Type} {n N k : Nat} (off : Nat) (Z : (⟨2, ![n, N]⟩ : Shape).Idx → α)
    (h : (⟨2, ![n, N]⟩ : Shape).Slices ![0, off] ⟨2, ![n, k]⟩) (p : Fin n) (q : Fin k) (col : Fin N)
    (hcol : col.val = off + q.val) :
    extractStridedSlice ⟨2, ![n, k]⟩ ![0, off] Z h (ix2 p q) = Z (ix2 p col) :=
  extractStridedSlice_apply _ Z h _ _ fun a => by
    match a with
    | ⟨0, _⟩ => show p.val = 0 + p.val; omega
    | ⟨1, _⟩ => exact hcol

end Cert.Lib.GateForms

end
-- ==== Proof.CellSpec.lean ====
/-
  One step of an LSTM cell on the extended reals, as functions of whole arrays.

  For n rows, with X, H the n × 256 input and hidden state, C the n × 256 cell state, W, U two 256 × 1024 weight
  matrices and b a 1 × 1024 bias row, the four gates' pre-activations sit side by side in the n × 1024 array
      Z = (X·W + H·U) + b            (`gates`),
  column group 0 feeding the forget gate, 1 the input gate, 2 the output gate and 3 the candidate. With σ the
  logistic function,
      C'(p, q) = C(p, q) · σ(Z(p, q)) + tanh(Z(p, 768 + q)) · σ(Z(p, 256 + q))        (`cellNew`)
      H'(p, q) = σ(Z(p, 512 + q)) · tanh(C'(p, q))                                      (`hiddenNew`).
  Row p of Z, C' and H' depends on row p of X, H and C only (`gates_rows`, `cell_rows`, `hidden_rows`), so a block of
  rows pushed through these functions is the same block of rows of the whole arrays pushed through them.
  Two spellings of the same functions are read here once: a vector program's (operands narrowed to a shorter float
  format, which changes nothing on the extended reals; products accumulated into zeros; the bias row stretched down
  the rows; column groups cut out by slices; the logistic function as one operation) and a tensor program's (plain
  contractions; the bias vector made a row and then stretched; the logistic function written 1 / (1 + exp (−v)) with
  ones stretched from the word of the number one — on the extended reals that IS the logistic function, at the
  infinities too). No finiteness is used: sums and products are only ever regrouped, never distributed.
  Nothing here mentions a program.
-/
import Idealize.ShloMosaic.PureOps.Ideal.Laws
import Idealize.ShloMosaic.Lib.ValueIdx
import Idealize.ShloMosaic.Lib.Pipeline.Value
import Idealize.ShloMosaic.Lib.KernelVsHost
import proofs.«177137_j83897891160514_2_alg».proof.Proof.LibMatProd
import proofs.«177137_j83897891160514_2_alg».proof.Proof.LibRowVector
import proofs.«177137_j83897891160514_2_alg».proof.Proof.LibBiasSilu
import proofs.«177137_j83897891160514_2_alg».proof.Proof.LibGateForms

open scoped BigOperators

noncomputable section

namespace Cert.Cell

open Idealize.ShloMosaic Idealize.ShloMosaic.ValueIdx Cert.Lib.MatProd Cert.Lib.RowVector Cert.Lib.BiasSilu Cert.Lib.GateForms

variable {n n' : Nat}

/-! ## The functions -/

/-- The four gates' pre-activations side by side: entry (p, j) is Σₖ X(p,k)·W(k,j) + Σₖ H(p,k)·U(k,j), plus b(0, j). -/
def gates (X H : (⟨2, ![n, 256]⟩ : Shape).Idx → EReal) (W U : (⟨2, ![256, 1024]⟩ : Shape).Idx → EReal)
    (b : (⟨2, ![1, 1024]⟩ : Shape).Idx → EReal) : (⟨2, ![n, 1024]⟩ : Shape).Idx → EReal :=
  biasAdd (fun i => matProd X W i + matProd H U i) b

theorem gates_apply (X H : (⟨2, ![n, 256]⟩ : Shape).Idx → EReal) (W U : (⟨2, ![256, 1024]⟩ : Shape).Idx → EReal)
    (b : (⟨2, ![1, 1024]⟩ : Shape).Idx → EReal) (p : Fin n) (j : Fin 1024) :
    gates X H W U b (ix2 p j) = (matProd X W (ix2 p j) + matProd H U (ix2 p j)) + b (ix2 0 j) := rfl

/-- Column q of the g-th group of 256 among the 1024 columns. -/
def gcol (g : Fin 4) (q : Fin 256) : Fin 1024 := ⟨256 * g.val + q.val, by have := g.isLt; have := q.isLt; omega⟩

/-- The new cell state: the old one scaled by the forget gate plus the candidate scaled by the input gate. -/
def cellNew (C : (⟨2, ![n, 256]⟩ : Shape).Idx → EReal) (Z : (⟨2, ![n, 1024]⟩ : Shape).Idx → EReal) :
    (⟨2, ![n, 256]⟩ : Shape).Idx → EReal := fun i =>
  C i * Ideal.logistic (Z (ix2 (⟨(i 0).val, idx2_lt0 i⟩ : Fin n) (gcol 0 ⟨(i 1).val, idx2_lt1 i⟩)))
    + Ideal.tanh (Z (ix2 (⟨(i 0).val, idx2_lt0 i⟩ : Fin n) (gcol 3 ⟨(i 1).val, idx2_lt1 i⟩)))
      * Ideal.logistic (Z (ix2 (⟨(i 0).val, idx2_lt0 i⟩ : Fin n) (gcol 1 ⟨(i 1).val, idx2_lt1 i⟩)))

theorem cellNew_apply (C : (⟨2, ![n, 256]⟩ : Shape).Idx → EReal) (Z : (⟨2, ![n, 1024]⟩ : Shape).Idx → EReal)
    (p : Fin n) (q : Fin 256) :
    cellNew C Z (ix2 p q) = C (ix2 p q) * Ideal.logistic (Z (ix2 p (gcol 0 q)))
      + Ideal.tanh (Z (ix2 p (gcol 3 q))) * Ideal.logistic (Z (ix2 p (gcol 1 q))) := rfl

/-- The new hidden state: the squashed new cell state scaled by the output gate. -/
def hiddenNew (C : (⟨2, ![n, 256]⟩ : Shape).Idx → EReal) (Z : (⟨2, ![n, 1024]⟩ : Shape).Idx → EReal) :
    (⟨2, ![n, 256]⟩ : Shape).Idx → EReal := fun i =>
  Ideal.logistic (Z (ix2 (⟨(i 0).val, idx2_lt0 i⟩ : Fin n) (gcol 2 ⟨(i 1).val, idx2_lt1 i⟩))) * Ideal.tanh (cellNew C Z i)

theorem hiddenNew_apply (C : (⟨2, ![n, 256]⟩ : Shape).Idx → EReal) (Z : (⟨2, ![n, 1024]⟩ : Shape).Idx → EReal)
    (p : Fin n) (q : Fin 256) :
    hiddenNew C Z (ix2 p q) = Ideal.logistic (Z (ix2 p (gcol 2 q))) * Ideal.tanh (cellNew C Z (ix2 p q)) := rfl

/-! ## Each row depends on the same row of the operands -/

/-- If row p' of X', H' is row p of X, H, then row p' of the gates of X', H' is row p of the gates of X, H. -/
theorem gates_rows (X H : (⟨2, ![n, 256]⟩ : Shape).Idx → EReal) (X' H' : (⟨2, ![n', 256]⟩ : Shape).Idx → EReal)
    (W U : (⟨2, ![256, 1024]⟩ : Shape).Idx → EReal) (b : (⟨2, ![1, 1024]⟩ : Shape).Idx → EReal) (p' : Fin n') (p : Fin n)
    (hX : ∀ k : Fin 256, X' (ix2 p' k) = X (ix2 p k)) (hH : ∀ k : Fin 256, H' (ix2 p' k) = H (ix2 p k)) (j : Fin 1024) :
    gates X' H' W U b (ix2 p' j) = gates X H W U b (ix2 p j) := by
  rw [gates_apply, gates_apply, matProd_block X X' W W p' j p j hX (fun _ => rfl),
    matProd_block H H' U U p' j p j hH (fun _ => rfl)]

theorem cellNew_rows (C : (⟨2, ![n, 256]⟩ : Shape).Idx → EReal) (Z : (⟨2, ![n, 1024]⟩ : Shape).Idx → EReal)
    (C' : (⟨2, ![n', 256]⟩ : Shape).Idx → EReal) (Z' : (⟨2, ![n', 1024]⟩ : Shape).Idx → EReal) (p' : Fin n') (p : Fin n)
    (q : Fin 256) (hC : C' (ix2 p' q) = C (ix2 p q)) (hZ : ∀ j : Fin 1024, Z' (ix2 p' j) = Z (ix2 p j)) :
    cellNew C' Z' (ix2 p' q) = cellNew C Z (ix2 p q) := by
  rw [cellNew_apply, cellNew_apply, hC, hZ, hZ, hZ]

theorem hiddenNew_rows (C : (⟨2, ![n, 256]⟩ : Shape).Idx → EReal) (Z : (⟨2, ![n, 1024]⟩ : Shape).Idx → EReal)
    (C' : (⟨2, ![n', 256]⟩ : Shape).Idx → EReal) (Z' : (⟨2, ![n', 1024]⟩ : Shape).Idx → EReal) (p' : Fin n') (p : Fin n)
    (q : Fin 256) (hC : C' (ix2 p' q) = C (ix2 p q)) (hZ : ∀ j : Fin 1024, Z' (ix2 p' j) = Z (ix2 p j)) :
    hiddenNew C' Z' (ix2 p' q) = hiddenNew C Z (ix2 p q) := by
  rw [hiddenNew_apply, hiddenNew_apply, hZ, cellNew_rows C Z C' Z' p' p q hC hZ]

/-- A row of the new cell state from the same row of x, h and c. -/
theorem cell_rows (X H C : (⟨2, ![n, 256]⟩ : Shape).Idx → EReal) (X' H' C' : (⟨2, ![n', 256]⟩ : Shape).Idx → EReal)
    (W U : (⟨2, ![256, 1024]⟩ : Shape).Idx → EReal) (b : (⟨2, ![1, 1024]⟩ : Shape).Idx → EReal) (p' : Fin n') (p : Fin n)
    (hX : ∀ k : Fin 256, X' (ix2 p' k) = X (ix2 p k)) (hH : ∀ k : Fin 256, H' (ix2 p' k) = H (ix2 p k))
    (hC : ∀ k : Fin 256, C' (ix2 p' k) = C (ix2 p k)) (q : Fin 256) :
    cellNew C' (gates X' H' W U b) (ix2 p' q) = cellNew C (gates X H W U b) (ix2 p q) :=
  cellNew_rows _ _ _ _ p' p q (hC q) (gates_rows X H X' H' W U b p' p hX hH)

/-- A row of the new hidden state from the same row of x, h and c. -/
theorem hidden_rows (X H C : (⟨2, ![n, 256]⟩ : Shape).Idx → EReal) (X' H' C' : (⟨2, ![n', 256]⟩ : Shape).Idx → EReal)
    (W U : (⟨2, ![256, 1024]⟩ : Shape).Idx → EReal) (b : (⟨2, ![1, 1024]⟩ : Shape).Idx → EReal) (p' : Fin n') (p : Fin n)
    (hX : ∀ k : Fin 256, X' (ix2 p' k) = X (ix2 p k)) (hH : ∀ k : Fin 256, H' (ix2 p' k) = H (ix2 p k))
    (hC : ∀ k : Fin 256, C' (ix2 p' k) = C (ix2 p k)) (q : Fin 256) :
    hiddenNew C' (gates X' H' W U b) (ix2 p' q) = hiddenNew C (gates X H W U b) (ix2 p q) :=
  hiddenNew_rows _ _ _ _ p' p q (hC q) (gates_rows X H X' H' W U b p' p hX hH)

/-! ## A group of 256 columns cut out of the 1024 -/

theorem gcol0 (q : Fin 256) : (gcol 0 q).val = 0 + q.val := by show 256 * 0 + q.val = 0 + q.val; omega
theorem gcol1 (q : Fin 256) : (gcol 1 q).val = 256 + q.val := by show 256 * 1 + q.val = 256 + q.val; omega
theorem gcol2 (q : Fin 256) : (gcol 2 q).val = 512 + q.val := by show 256 * 2 + q.val = 512 + q.val; omega
theorem gcol3 (q : Fin 256) : (gcol 3 q).val = 768 + q.val := by show 256 * 3 + q.val = 768 + q.val; omega

/-! ## The vector program's spelling -/

/-- Operands narrowed to a shorter format, two products into zeros added, the bias row stretched down the rows and added. -/
theorem body_gates (x h : FVec Ideal ⟨2, ![n, 256]⟩ .f32) (w u : FVec Ideal ⟨2, ![256, 1024]⟩ .bf16)
    (b : FVec Ideal ⟨2, ![1, 1024]⟩ .f32) (d : DotDims ⟨2, ![n, 256]⟩ ⟨2, ![256, 1024]⟩ ⟨2, ![n, 1024]⟩)
    (hlc : d.lhsContracting = [1]) (hrc : d.rhsContracting = [0]) (hln : d.lhsNonContracting = [0])
    (hrn : d.rhsNonContracting = [1]) (hlb : d.lhsBatch = []) (hrb : d.rhsBatch = [])
    (ht : FTy.bits .bf16 < FTy.bits .f32) (hb : (⟨2, ![1, 1024]⟩ : Shape).Broadcasts ⟨2, ![n, 1024]⟩) :
    addf (addf (matmul d none (truncf .bf16 x ht) w (constant ⟨2, ![n, 1024]⟩ .f32 0x00000000#32))
        (matmul d none (truncf .bf16 h ht) u (constant ⟨2, ![n, 1024]⟩ .f32 0x00000000#32)))
      (broadcastTo ⟨2, ![n, 1024]⟩ b hb) = gates x h w u b := by
  rw [matmul_zero_eq_matProd d hlc hrc hln hrn hlb hrb, matmul_zero_eq_matProd d hlc hrc hln hrn hlb hrb]
  funext i
  obtain ⟨p, j, rfl⟩ : ∃ (p : Fin n) (j : Fin 1024), i = ix2 p j := ⟨i 0, i 1, eq_ix2 i⟩
  rw [addf_apply, addf_apply, Cert.Lib.BlockReads.broadcast_row_apply, gates_apply]
  rfl

/-- The three column groups cut out, the logistic function and tanh applied, and the cell update. -/
theorem body_cell (c : FVec Ideal ⟨2, ![n, 256]⟩ .f32) (Z : FVec Ideal ⟨2, ![n, 1024]⟩ .f32)
    (h0 : (⟨2, ![n, 1024]⟩ : Shape).Slices ![0, 0] ⟨2, ![n, 256]⟩) (h1 : (⟨2, ![n, 1024]⟩ : Shape).Slices ![0, 256] ⟨2, ![n, 256]⟩)
    (h3 : (⟨2, ![n, 1024]⟩ : Shape).Slices ![0, 768] ⟨2, ![n, 256]⟩) :
    addf (mulf c (logistic (extractStridedSlice ⟨2, ![n, 256]⟩ ![0, 0] Z h0)))
      (mulf (tanh (extractStridedSlice ⟨2, ![n, 256]⟩ ![0, 768] Z h3)) (logistic (extractStridedSlice ⟨2, ![n, 256]⟩ ![0, 256] Z h1)))
      = cellNew c Z := by
  funext i
  obtain ⟨p, q, rfl⟩ : ∃ (p : Fin n) (q : Fin 256), i = ix2 p q := ⟨i 0, i 1, eq_ix2 i⟩
  show c (ix2 p q) * Ideal.logistic (extractStridedSlice ⟨2, ![n, 256]⟩ ![0, 0] Z h0 (ix2 p q))
      + Ideal.tanh (extractStridedSlice ⟨2, ![n, 256]⟩ ![0, 768] Z h3 (ix2 p q))
        * Ideal.logistic (extractStridedSlice ⟨2, ![n, 256]⟩ ![0, 256] Z h1 (ix2 p q)) = _
  rw [slice_cols_apply 0 Z h0 p q (gcol 0 q) (gcol0 q), slice_cols_apply 768 Z h3 p q (gcol 3 q) (gcol3 q),
    slice_cols_apply 256 Z h1 p q (gcol 1 q) (gcol1 q), cellNew_apply]

/-- The output gate's column group cut out and the hidden update. -/
theorem body_hidden (c : FVec Ideal ⟨2, ![n, 256]⟩ .f32) (Z : FVec Ideal ⟨2, ![n, 1024]⟩ .f32)
    (h2 : (⟨2, ![n, 1024]⟩ : Shape).Slices ![0, 512] ⟨2, ![n, 256]⟩) :
    mulf (logistic (extractStridedSlice ⟨2, ![n, 256]⟩ ![0, 512] Z h2)) (tanh (cellNew c Z : FVec Ideal ⟨2, ![n, 256]⟩ .f32))
      = hiddenNew c Z := by
  funext i
  obtain ⟨p, q, rfl⟩ : ∃ (p : Fin n) (q : Fin 256), i = ix2 p q := ⟨i 0, i 1, eq_ix2 i⟩
  show Ideal.logistic (extractStridedSlice ⟨2, ![n, 256]⟩ ![0, 512] Z h2 (ix2 p q)) * Ideal.tanh (cellNew c Z (ix2 p q)) = _
  rw [slice_cols_apply 512 Z h2 p q (gcol 2 q) (gcol2 q), hiddenNew_apply]

/-! ## The tensor program's spelling -/

/-- Two plain contractions added, the bias vector made a row, stretched down the rows and added. -/
theorem host_gates (X H : FVec Ideal ⟨2, ![n, 256]⟩ .f32) (W U : FVec Ideal ⟨2, ![256, 1024]⟩ .f32)
    (bv : FVec Ideal ⟨1, ![1024]⟩ .f32) (d : DotDims ⟨2, ![n, 256]⟩ ⟨2, ![256, 1024]⟩ ⟨2, ![n, 1024]⟩)
    (hlc : d.lhsContracting = [1]) (hrc : d.rhsContracting = [0]) (hln : d.lhsNonContracting = [0])
    (hrn : d.rhsNonContracting = [1]) (hlb : d.lhsBatch = []) (hrb : d.rhsBatch = [])
    (h1 : (⟨1, ![1024]⟩ : Shape).BroadcastsInDim ⟨2, ![1, 1024]⟩ ![1])
    (h2 : (⟨2, ![1, 1024]⟩ : Shape).BroadcastsInDim ⟨2, ![n, 1024]⟩ ![0, 1]) :
    addf (addf (Host.dotGeneral d none X W) (Host.dotGeneral d none H U))
      (broadcastInDim ⟨2, ![n, 1024]⟩ ![0, 1] h2 (broadcastInDim ⟨2, ![1, 1024]⟩ ![1] h1 bv)) = gates X H W U (asRow bv) := by
  rw [← matmul_zero_eq_dotGeneral d none X W, ← matmul_zero_eq_dotGeneral d none H U,
    matmul_zero_eq_matProd d hlc hrc hln hrn hlb hrb, matmul_zero_eq_matProd d hlc hrc hln hrn hlb hrb, host_add_eq]
  rfl

/-- The cell update written with slices, 1 / (1 + exp (−v)) and tanh. -/
theorem host_cell (C : FVec Ideal ⟨2, ![n, 256]⟩ .f32) (Z : FVec Ideal ⟨2, ![n, 1024]⟩ .f32)
    (h0 : (⟨2, ![n, 1024]⟩ : Shape).Slices ![0, 0] ⟨2, ![n, 256]⟩) (h1 : (⟨2, ![n, 1024]⟩ : Shape).Slices ![0, 256] ⟨2, ![n, 256]⟩)
    (h3 : (⟨2, ![n, 1024]⟩ : Shape).Slices ![0, 768] ⟨2, ![n, 256]⟩) (ho : (⟨0, ![]⟩ : Shape).BroadcastsInDim ⟨2, ![n, 256]⟩ ![]) :
    addf (mulf C (Host.divf (broadcastInDim ⟨2, ![n, 256]⟩ ![] ho (constant (F := Ideal) ⟨0, ![]⟩ .f32 0x3F800000#32))
          (addf (broadcastInDim ⟨2, ![n, 256]⟩ ![] ho (constant (F := Ideal) ⟨0, ![]⟩ .f32 0x3F800000#32))
            (Host.exp (Host.negf (extractStridedSlice ⟨2, ![n, 256]⟩ ![0, 0] Z h0))))))
      (mulf (Host.tanh (extractStridedSlice ⟨2, ![n, 256]⟩ ![0, 768] Z h3))
        (Host.divf (broadcastInDim ⟨2, ![n, 256]⟩ ![] ho (constant (F := Ideal) ⟨0, ![]⟩ .f32 0x3F800000#32))
          (addf (broadcastInDim ⟨2, ![n, 256]⟩ ![] ho (constant (F := Ideal) ⟨0, ![]⟩ .f32 0x3F800000#32))
            (Host.exp (Host.negf (extractStridedSlice ⟨2, ![n, 256]⟩ ![0, 256] Z h1))))))
      = cellNew C Z := by
  rw [host_logistic, host_logistic]
  funext i
  obtain ⟨p, q, rfl⟩ : ∃ (p : Fin n) (q : Fin 256), i = ix2 p q := ⟨i 0, i 1, eq_ix2 i⟩
  show C (ix2 p q) * Ideal.logistic (extractStridedSlice ⟨2, ![n, 256]⟩ ![0, 0] Z h0 (ix2 p q))
      + Ideal.tanh (extractStridedSlice ⟨2, ![n, 256]⟩ ![0, 768] Z h3 (ix2 p q))
        * Ideal.logistic (extractStridedSlice ⟨2, ![n, 256]⟩ ![0, 256] Z h1 (ix2 p q)) = _
  rw [slice_cols_apply 0 Z h0 p q (gcol 0 q) (gcol0 q), slice_cols_apply 768 Z h3 p q (gcol 3 q) (gcol3 q),
    slice_cols_apply 256 Z h1 p q (gcol 1 q) (gcol1 q), cellNew_apply]

/-- The hidden update written the same way, over the new cell state. -/
theorem host_hidden (C : FVec Ideal ⟨2, ![n, 256]⟩ .f32) (Z : FVec Ideal ⟨2, ![n, 1024]⟩ .f32)
    (h2 : (⟨2, ![n, 1024]⟩ : Shape).Slices ![0, 512] ⟨2, ![n, 256]⟩) (ho : (⟨0, ![]⟩ : Shape).BroadcastsInDim ⟨2, ![n, 256]⟩ ![]) :
    mulf (Host.divf (broadcastInDim ⟨2, ![n, 256]⟩ ![] ho (constant (F := Ideal) ⟨0, ![]⟩ .f32 0x3F800000#32))
          (addf (broadcastInDim ⟨2, ![n, 256]⟩ ![] ho (constant (F := Ideal) ⟨0, ![]⟩ .f32 0x3F800000#32))
            (Host.exp (Host.negf (extractStridedSlice ⟨2, ![n, 256]⟩ ![0, 512] Z h2)))))
      (Host.tanh (cellNew C Z : FVec Ideal ⟨2, ![n, 256]⟩ .f32)) = hiddenNew C Z := by
  rw [host_logistic]
  funext i
  obtain ⟨p, q, rfl⟩ : ∃ (p : Fin n) (q : Fin 256), i = ix2 p q := ⟨i 0, i 1, eq_ix2 i⟩
  show Ideal.logistic (extractStridedSlice ⟨2, ![n, 256]⟩ ![0, 512] Z h2 (ix2 p q)) * Ideal.tanh (cellNew C Z (ix2 p q)) = _
  rw [slice_cols_apply 512 Z h2 p q (gcol 2 q) (gcol2 q), hiddenNew_apply]

end Cert.Cell

end
-- ==== Proof.IdealBlock.lean ====
/-
  What one grid point computes, on the extended reals.

  The body handles its 2048-row block as two halves of 1024 rows. On each half the arithmetic between the loads and
  the stores is the LSTM step of the specification on 1024 rows: the two products into zeros, the bias row, the four
  column groups, the logistic function and tanh. Every row of that step depends on the same row of x, h and c only,
  so the two halves, laid over rows 0–1023 and 1024–2047 of the output buffer, are together the same step on all
  2048 rows of the block: `cellOut = cellNew …` and `hiddenOut = hiddenNew …` as functions of the block's six inputs.
-/
import proofs.«177137_j83897891160514_2_alg».proof.Proof.IdealPoint
import proofs.«177137_j83897891160514_2_alg».proof.Proof.CellSpec

set_option maxRecDepth 16384

noncomputable section

namespace Cert.KernelIdeal.Block

open Idealize.ShloMosaic Idealize.ShloMosaic.TcCoe Idealize.ShloMosaic.ValueIdx
open Cert.KernelIdeal Cert.KernelIdeal.Gen Cert.KernelIdeal.Point Cert.Cell

/-! ## The arithmetic of a half -/

theorem weights_kept (w : Vec Ideal S256x1024 .bf16) : k0_pay4 w = w := by unfold k0_pay4; exact shapeCast_self _ _
theorem hidden_weights_kept (u : Vec Ideal S256x1024 .bf16) : k0_pay5 u = u := by unfold k0_pay5; exact shapeCast_self _ _
theorem bias_kept (b : Vec Ideal S1x1024 .f32) : k0_pay6 b = b := by unfold k0_pay6; exact shapeCast_self _ _

/-- The upper half's pre-activations. -/
theorem upper_gates (w u : Vec Ideal S256x1024 .bf16) (b : Vec Ideal S1x1024 .f32) (x h : Vec Ideal S1024x256 .f32) :
    k0_pay7 w u b x h = gates x h w u b := by
  unfold k0_pay7
  rw [weights_kept, hidden_weights_kept, bias_kept]
  exact body_gates x h w u b _ rfl rfl rfl rfl rfl rfl _ _

/-- The upper half's new cell state. -/
theorem upper_cell (w u : Vec Ideal S256x1024 .bf16) (b : Vec Ideal S1x1024 .f32) (x h c : Vec Ideal S1024x256 .f32) :
    k0_pay8 w u b x h c = cellNew c (gates x h w u b) := by
  unfold k0_pay8
  rw [upper_gates]
  exact body_cell c _ _ _ _

/-- The upper half's new hidden state. -/
theorem upper_hidden (w u : Vec Ideal S256x1024 .bf16) (b : Vec Ideal S1x1024 .f32) (x h c : Vec Ideal S1024x256 .f32) :
    k0_pay9 w u b x h c = hiddenNew c (gates x h w u b) := by
  unfold k0_pay9
  rw [upper_cell, upper_gates]
  exact body_hidden c _ _

/-- The lower half's pre-activations. -/
theorem lower_gates (w u : Vec Ideal S256x1024 .bf16) (b : Vec Ideal S1x1024 .f32) (x h : Vec Ideal S1024x256 .f32) :
    k0_pay1 w u b x h = gates x h w u b := by
  unfold k0_pay1
  exact body_gates x h w u b _ rfl rfl rfl rfl rfl rfl _ _

/-- The lower half's new cell state. -/
theorem lower_cell (w u : Vec Ideal S256x1024 .bf16) (b : Vec Ideal S1x1024 .f32) (x h c : Vec Ideal S1024x256 .f32) :
    k0_pay2 w u b x h c = cellNew c (gates x h w u b) := by
  unfold k0_pay2
  rw [lower_gates]
  exact body_cell c _ _ _ _

/-- The lower half's new hidden state. -/
theorem lower_hidden (w u : Vec Ideal S256x1024 .bf16) (b : Vec Ideal S1x1024 .f32) (x h c : Vec Ideal S1024x256 .f32) :
    k0_pay3 w u b x h c = hiddenNew c (gates x h w u b) := by
  unfold k0_pay3
  rw [lower_cell, lower_gates]
  exact body_hidden c _ _

/-! ## The rectangles as maps of indices -/

theorem zero2 : (![0, 0] : Fin 2 → Nat) = fun _ => 0 := funext fun a => by fin_cases a <;> rfl

theorem ld_allW (w : Vec Ideal S256x1024 .bf16) : View.ld w allW = w := View.ld_unit_zero (S := S256x1024) zero2 _ w
theorem ld_allB (b : Vec Ideal S1x1024 .f32) : View.ld b allB = b := View.ld_unit_zero (S := S1x1024) zero2 _ b

/-- Row p of the lower half is row 1024 + p of the block. -/
theorem lower_emb (p : Fin 1024) (k : Fin 256) :
    lower.emb (ix2 p k) = (ix2 (⟨1024 + p.val, by have := p.isLt; omega⟩ : Fin 2048) k : S2048x256.Idx) := by
  funext a; apply Fin.ext
  match a with
  | ⟨0, _⟩ => show 1024 + 1 * p.val = 1024 + p.val; omega
  | ⟨1, _⟩ => show 0 + 1 * k.val = k.val; omega

/-- Row p of the upper half is row p of the block. -/
theorem upper_emb (p : Fin 1024) (k : Fin 256) :
    upper.emb (ix2 p k) = (ix2 (⟨p.val, by have := p.isLt; omega⟩ : Fin 2048) k : S2048x256.Idx) := by
  funext a; apply Fin.ext
  match a with
  | ⟨0, _⟩ => show 0 + 1 * p.val = p.val; omega
  | ⟨1, _⟩ => show 0 + 1 * k.val = k.val; omega

/-! ## The two halves are the step on the whole block -/

theorem lower_cell_piece (X C H : Vec Ideal S2048x256 .f32) (w u : Vec Ideal S256x1024 .bf16) (b : Vec Ideal S1x1024 .f32)
    (x : S1024x256.Idx) :
    k0_pay2 w u b (View.ld X lower) (View.ld H lower) (View.ld C lower) x = cellNew C (gates X H w u b) (lower.emb x) := by
  obtain ⟨p, q, rfl⟩ : ∃ (p : Fin 1024) (q : Fin 256), x = ix2 p q := ⟨x 0, x 1, eq_ix2 x⟩
  rw [lower_cell, lower_emb]
  exact cell_rows X H C _ _ _ w u b p _ (fun k => congrArg X (lower_emb p k)) (fun k => congrArg H (lower_emb p k))
    (fun k => congrArg C (lower_emb p k)) q

theorem upper_cell_piece (X C H : Vec Ideal S2048x256 .f32) (w u : Vec Ideal S256x1024 .bf16) (b : Vec Ideal S1x1024 .f32)
    (x : S1024x256.Idx) :
    k0_pay8 w u b (View.ld X upper) (View.ld H upper) (View.ld C upper) x = cellNew C (gates X H w u b) (upper.emb x) := by
  obtain ⟨p, q, rfl⟩ : ∃ (p : Fin 1024) (q : Fin 256), x = ix2 p q := ⟨x 0, x 1, eq_ix2 x⟩
  rw [upper_cell, upper_emb]
  exact cell_rows X H C _ _ _ w u b p _ (fun k => congrArg X (upper_emb p k)) (fun k => congrArg H (upper_emb p k))
    (fun k => congrArg C (upper_emb p k)) q

theorem lower_hidden_piece (X C H : Vec Ideal S2048x256 .f32) (w u : Vec Ideal S256x1024 .bf16) (b : Vec Ideal S1x1024 .f32)
    (x : S1024x256.Idx) :
    k0_pay3 w u b (View.ld X lower) (View.ld H lower) (View.ld C lower) x = hiddenNew C (gates X H w u b) (lower.emb x) := by
  obtain ⟨p, q, rfl⟩ : ∃ (p : Fin 1024) (q : Fin 256), x = ix2 p q := ⟨x 0, x 1, eq_ix2 x⟩
  rw [lower_hidden, lower_emb]
  exact hidden_rows X H C _ _ _ w u b p _ (fun k => congrArg X (lower_emb p k)) (fun k => congrArg H (lower_emb p k))
    (fun k => congrArg C (lower_emb p k)) q

theorem upper_hidden_piece (X C H : Vec Ideal S2048x256 .f32) (w u : Vec Ideal S256x1024 .bf16) (b : Vec Ideal S1x1024 .f32)
    (x : S1024x256.Idx) :
    k0_pay9 w u b (View.ld X upper) (View.ld H upper) (View.ld C upper) x = hiddenNew C (gates X H w u b) (upper.emb x) := by
  obtain ⟨p, q, rfl⟩ : ∃ (p : Fin 1024) (q : Fin 256), x = ix2 p q := ⟨x 0, x 1, eq_ix2 x⟩
  rw [upper_hidden, upper_emb]
  exact hidden_rows X H C _ _ _ w u b p _ (fun k => congrArg X (upper_emb p k)) (fun k => congrArg H (upper_emb p k))
    (fun k => congrArg C (upper_emb p k)) q

/-- The block's new cell state is the step's, on all 2048 rows. -/
theorem cellOut_eq (X C H : Vec Ideal S2048x256 .f32) (w u : Vec Ideal S256x1024 .bf16) (b : Vec Ideal S1x1024 .f32) :
    cellOut X C H w u b = cellNew C (gates X H w u b) := by
  funext y
  unfold cellOut
  rw [ld_allW, ld_allW, ld_allB, weights_kept, hidden_weights_kept, bias_kept]
  refine View.canon_apply_of_pieces (Val := Elt Ideal) (S := S2048x256) (e := .f32) (cellNew C (gates X H w u b)) _ (fun pc hpc x => ?_) y (halves_cover _ _ y)
  simp only [List.mem_cons, List.mem_nil_iff, or_false] at hpc
  rcases hpc with rfl | rfl
  · exact lower_cell_piece X C H w u b x
  · exact upper_cell_piece X C H w u b x

/-- The block's new hidden state is the step's, on all 2048 rows. -/
theorem hiddenOut_eq (X C H : Vec Ideal S2048x256 .f32) (w u : Vec Ideal S256x1024 .bf16) (b : Vec Ideal S1x1024 .f32) :
    hiddenOut X C H w u b = hiddenNew C (gates X H w u b) := by
  funext y
  unfold hiddenOut
  rw [ld_allW, ld_allW, ld_allB, weights_kept, hidden_weights_kept, bias_kept]
  refine View.canon_apply_of_pieces (Val := Elt Ideal) (S := S2048x256) (e := .f32) (hiddenNew C (gates X H w u b)) _ (fun pc hpc x => ?_) y (halves_cover _ _ y)
  simp only [List.mem_cons, List.mem_nil_iff, or_false] at hpc
  rcases hpc with rfl | rfl
  · exact lower_hidden_piece X C H w u b x
  · exact upper_hidden_piece X C H w u b x

end Cert.KernelIdeal.Block

end
-- ==== Proof.IdealArrays.lean ====
/-
  The two result arrays after the whole run, on the extended reals.

  When the region is entered, the window of the input weights holds the four gates' matrices laid side by side (the
  narrowing to a shorter float format changes nothing on the extended reals), the window of the hidden weights the
  same for theirs, and the bias window the four bias vectors laid end to end, made a 1 × 1024 row. Point t of the 32
  stages rows 2048·t … 2048·t + 2047 of x, c and h and the whole of the three resident windows, and writes back, to the
  same rows of the two results, the LSTM step of those rows. A row of the step depends on that row of x, c and h only,
  and the 32 blocks tile the 65536 rows, so after the run the first result is the new cell state and the second the
  new hidden state of the WHOLE arrays: `cellArr`, `hiddenArr`.
-/
import proofs.«177137_j83897891160514_2_alg».proof.Proof.IdealRegion
import proofs.«177137_j83897891160514_2_alg».proof.Proof.IdealBlock
import Idealize.ShloMosaic.Lib.Pipeline.Value
import Idealize.ShloMosaic.Lib.StableHlo.Run

set_option maxRecDepth 16384

noncomputable section

namespace Cert.KernelIdeal.Arrays

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.KernelIdeal.Point Cert.KernelIdeal.Region Cert.KernelIdeal.Block Cert.Cell

variable (m : (ℓ : Loc nD τ sig) → Buf (Elt Ideal) ℓ) (ρ : Dev nD → PrngReg)

/-! ## The whole-array results -/

/-- The new cell state of all 65536 rows, from the arrays as the region finds them. -/
def cellArr (c : Dev nD) : S65536x256.Idx → EReal :=
  cellNew (V m c main_arg1 : S65536x256.Idx → Elt Ideal .f32)
    (gates (V m c main_arg0 : S65536x256.Idx → Elt Ideal .f32) (V m c main_arg2 : S65536x256.Idx → Elt Ideal .f32)
      (V m c main_v1 : S256x1024.Idx → Elt Ideal .bf16) (V m c main_v3 : S256x1024.Idx → Elt Ideal .bf16)
      (V m c main_v5 : S1x1024.Idx → Elt Ideal .f32))

/-- The new hidden state of all 65536 rows. -/
def hiddenArr (c : Dev nD) : S65536x256.Idx → EReal :=
  hiddenNew (V m c main_arg1 : S65536x256.Idx → Elt Ideal .f32)
    (gates (V m c main_arg0 : S65536x256.Idx → Elt Ideal .f32) (V m c main_arg2 : S65536x256.Idx → Elt Ideal .f32)
      (V m c main_v1 : S256x1024.Idx → Elt Ideal .bf16) (V m c main_v3 : S256x1024.Idx → Elt Ideal .bf16)
      (V m c main_v5 : S1x1024.Idx → Elt Ideal .f32))

/-! ## The block index of each window at each point -/

theorem point_lt (t : Fin cfg0.N) : t.val < 32 := lt_of_lt_of_eq t.isLt (N_0 : cfg0.N = 32)
theorem row_lt (t : Fin cfg0.N) (p : Fin 2048) : 2048 * t.val + p.val < 65536 := by
  have := point_lt t; have := p.isLt; omega

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = t.val ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = t.val ∧ win0_6.index t (1 : Fin 2) = 0 :=
  (by decide +kernel : ∀ t : Fin grid0.N, _)
theorem idx_7 : ∀ t : Fin cfg0.N, win0_7.index t (0 : Fin 2) = t.val ∧ win0_7.index t (1 : Fin 2) = 0 :=
  (by decide +kernel : ∀ t : Fin grid0.N, _)

/-! ## Each input window's block as rows of its array -/

theorem rows_of_0 (c : Dev nD) (t : Fin cfg0.N) (p : Fin 2048) (k : Fin 256) :
    (iblk m c 0 t : Vec Ideal S2048x256 .f32) (ix2 p k)
      = (V m c main_arg0 : S65536x256.Idx → Elt Ideal .f32) (ix2 (⟨2048 * t.val + p.val, row_lt t p⟩ : Fin 65536) k) := by
  obtain ⟨e0, e1⟩ := idx_0 t
  unfold iblk
  rw [View.read_apply]
  show V m c main_arg0 _ = V m c main_arg0 _
  congr 1
  funext a; apply Fin.ext
  match a with
  | ⟨0, _⟩ => show win0_0.index t (0 : Fin 2) * 2048 + 1 * p.val = 2048 * t.val + p.val; rw [e0]; omega
  | ⟨1, _⟩ => show win0_0.index t (1 : Fin 2) * 256 + 1 * k.val = k.val; rw [e1]; omega
theorem rows_of_1 (c : Dev nD) (t : Fin cfg0.N) (p : Fin 2048) (k : Fin 256) :
    (iblk m c 1 t : Vec Ideal S2048x256 .f32) (ix2 p k)
      = (V m c main_arg1 : S65536x256.Idx → Elt Ideal .f32) (ix2 (⟨2048 * t.val + p.val, row_lt t p⟩ : Fin 65536) k) := by
  obtain ⟨e0, e1⟩ := idx_1 t
  unfold iblk
  rw [View.read_apply]
  show V m c main_arg1 _ = V m c main_arg1 _
  congr 1
  funext a; apply Fin.ext
  match a with
  | ⟨0, _⟩ => show win0_1.index t (0 : Fin 2) * 2048 + 1 * p.val = 2048 * t.val + p.val; rw [e0]; omega
  | ⟨1, _⟩ => show win0_1.index t (1 : Fin 2) * 256 + 1 * k.val = k.val; rw [e1]; omega
theorem rows_of_2 (c : Dev nD) (t : Fin cfg0.N) (p : Fin 2048) (k : Fin 256) :
    (iblk m c 2 t : Vec Ideal S2048x256 .f32) (ix2 p k)
      = (V m c main_arg2 : S65536x256.Idx → Elt Ideal .f32) (ix2 (⟨2048 * t.val + p.val, row_lt t p⟩ : Fin 65536) k) := by
  obtain ⟨e0, e1⟩ := idx_2 t
  unfold iblk
  rw [View.read_apply]
  show V m c main_arg2 _ = V m c main_arg2 _
  congr 1
  funext a; apply Fin.ext
  match a with
  | ⟨0, _⟩ => show win0_2.index t (0 : Fin 2) * 2048 + 1 * p.val = 2048 * t.val + p.val; rw [e0]; omega
  | ⟨1, _⟩ => show win0_2.index t (1 : Fin 2) * 256 + 1 * k.val = k.val; rw [e1]; omega
theorem all_of_3 (c : Dev nD) (t : Fin cfg0.N) :
    (iblk m c 3 t : Vec Ideal S256x1024 .bf16) = (V m c main_v1 : S256x1024.Idx → Elt Ideal .bf16) := by
  obtain ⟨e0, e1⟩ := idx_3 t
  funext j
  unfold iblk
  rw [View.read_apply]
  show V m c main_v1 _ = V m c main_v1 j
  congr 1
  funext a; apply Fin.ext
  match a with
  | ⟨0, _⟩ => show win0_3.index t (0 : Fin 2) * 256 + 1 * (j 0).val = (j 0).val; rw [e0]; omega
  | ⟨1, _⟩ => show win0_3.index t (1 : Fin 2) * 1024 + 1 * (j 1).val = (j 1).val; rw [e1]; omega
theorem all_of_4 (c : Dev nD) (t : Fin cfg0.N) :
    (iblk m c 4 t : Vec Ideal S256x1024 .bf16) = (V m c main_v3 : S256x1024.Idx → Elt Ideal .bf16) := by
  obtain ⟨e0, e1⟩ := idx_4 t
  funext j
  unfold iblk
  rw [View.read_apply]
  show V m c main_v3 _ = V m c main_v3 j
  congr 1
  funext a; apply Fin.ext
  match a with
  | ⟨0, _⟩ => show win0_4.index t (0 : Fin 2) * 256 + 1 * (j 0).val = (j 0).val; rw [e0]; omega
  | ⟨1, _⟩ => show win0_4.index t (1 : Fin 2) * 1024 + 1 * (j 1).val = (j 1).val; rw [e1]; omega
theorem all_of_5 (c : Dev nD) (t : Fin cfg0.N) :
    (iblk m c 5 t : Vec Ideal S1x1024 .f32) = (V m c main_v5 : S1x1024.Idx → Elt Ideal .f32) := by
  obtain ⟨e0, e1⟩ := idx_5 t
  funext j
  unfold iblk
  rw [View.read_apply]
  show V m c main_v5 _ = V m c main_v5 j
  congr 1
  funext a; apply Fin.ext
  match a with
  | ⟨0, _⟩ => show win0_5.index t (0 : Fin 2) * 1 + 1 * (j 0).val = (j 0).val; rw [e0]; omega
  | ⟨1, _⟩ => show win0_5.index t (1 : Fin 2) * 1024 + 1 * (j 1).val = (j 1).val; rw [e1]; omega

/-! ## The first result: the new cell state -/

/-- Row p of point t's block of the result is row 2048·t + p of the array. -/
theorem out_emb_6 (t : Fin cfg0.N) (p : Fin 2048) (q : Fin 256) :
    ((cfg0.win 6).blk t).view.emb (ix2 p q) = (ix2 (⟨2048 * t.val + p.val, row_lt t p⟩ : Fin 65536) q : S65536x256.Idx) := by
  obtain ⟨e0, e1⟩ := idx_6 t
  funext a; apply Fin.ext
  match a with
  | ⟨0, _⟩ => show win0_6.index t (0 : Fin 2) * 2048 + 1 * p.val = 2048 * t.val + p.val; rw [e0]; omega
  | ⟨1, _⟩ => show win0_6.index t (1 : Fin 2) * 256 + 1 * q.val = q.val; rw [e1]; omega

theorem cell_block_at (c : Dev nD) (t : Fin cfg0.N) (j : S2048x256.Idx) :
    cellNew (iblk m c 1 t : Vec Ideal S2048x256 .f32)
        (gates (iblk m c 0 t : Vec Ideal S2048x256 .f32) (iblk m c 2 t : Vec Ideal S2048x256 .f32)
          (V m c main_v1 : S256x1024.Idx → Elt Ideal .bf16) (V m c main_v3 : S256x1024.Idx → Elt Ideal .bf16)
          (V m c main_v5 : S1x1024.Idx → Elt Ideal .f32)) j
      = cellArr m c (((cfg0.win 6).blk t).view.emb j) := by
  obtain ⟨p, q, rfl⟩ : ∃ (p : Fin 2048) (q : Fin 256), j = ix2 p q := ⟨j 0, j 1, eq_ix2 j⟩
  rw [out_emb_6]
  exact cell_rows _ _ _ _ _ _ _ _ _ p _ (rows_of_0 m c t p) (rows_of_2 m c t p) (rows_of_1 m c t p) q

/-- What point t writes back is block t of the whole-array function. -/
theorem cell_flushed (c : Dev nD) (t : Fin cfg0.N) :
    (dats m 0 c).flushed 6 t = ((cfg0.win 6).blk t).view.read (Elt Ideal) (cellArr m c) := by
  show (cfg0.win 6).cut (grid0.coords t) ((dats m 0 c).after 6 t) = _
  rw [after_6, cellOut_eq, all_of_3, all_of_4, all_of_5]
  funext j
  rw [View.read_apply]
  exact cell_block_at m c t j

/-- An index of the array lies in point t's block iff each coordinate lies in the block's range. -/
theorem mem_blk_6 (t : Fin cfg0.N) (i : S65536x256.Idx) :
    i ∈ ((cfg0.win 6).blk t).view.set ↔ ∀ a : Fin 2, win0_6.index t a * S2048x256.size a ≤ (i a).val
      ∧ (i a).val < win0_6.index t a * S2048x256.size a + S2048x256.size a := by
  show i ∈ ((View.whole main_v6_0).slice (win0_6.rect t)).set ↔ _
  rw [View.set_slice_whole, Rect.mem_set_unit]
  exact Iff.rfl

/-- Row r of the array lies in the block of point r / 2048: the 32 blocks tile the 65536 rows. -/
theorem covered_6 (i : S65536x256.Idx) :
    ∃ t : Fin cfg0.N, (cfg0.win 6).flush t = true ∧ i ∈ ((cfg0.win 6).blk t).view.set := by
  have hi0 : (i 0).val < 65536 := (i 0).isLt
  have hi1 : (i 1).val < 256 := (i 1).isLt
  obtain ⟨t, ht⟩ : ∃ t : Fin cfg0.N, t.val = (i 0).val / 2048 :=
    ⟨⟨(i 0).val / 2048, by rw [show cfg0.N = 32 from N_0]; omega⟩, rfl⟩
  obtain ⟨e0, e1⟩ := idx_6 t
  refine ⟨t, flush0_6 t, ?_⟩
  rw [mem_blk_6]
  intro a
  match a with
  | ⟨0, _⟩ =>
    show win0_6.index t (0 : Fin 2) * 2048 ≤ (i 0).val ∧ (i 0).val < win0_6.index t (0 : Fin 2) * 2048 + 2048
    rw [e0]; omega
  | ⟨1, _⟩ =>
    show win0_6.index t (1 : Fin 2) * 256 ≤ (i 1).val ∧ (i 1).val < win0_6.index t (1 : Fin 2) * 256 + 256
    rw [e1]; omega

/-- So the array ends holding the whole-array function. -/
theorem cell_final (c : Dev nD) : (dats m 0 c).arrAt 6 cfg0.N = cellArr m c :=
  (dats m 0 c).arrAt_eq_of_cover 6 (cellArr m c) (fun t _ => cell_flushed m c t) covered_6

/-! ## The second result: the new hidden state -/

/-- Row p of point t's block of the result is row 2048·t + p of the array. -/
theorem out_emb_7 (t : Fin cfg0.N) (p : Fin 2048) (q : Fin 256) :
    ((cfg0.win 7).blk t).view.emb (ix2 p q) = (ix2 (⟨2048 * t.val + p.val, row_lt t p⟩ : Fin 65536) q : S65536x256.Idx) := by
  obtain ⟨e0, e1⟩ := idx_7 t
  funext a; apply Fin.ext
  match a with
  | ⟨0, _⟩ => show win0_7.index t (0 : Fin 2) * 2048 + 1 * p.val = 2048 * t.val + p.val; rw [e0]; omega
  | ⟨1, _⟩ => show win0_7.index t (1 : Fin 2) * 256 + 1 * q.val = q.val; rw [e1]; omega

theorem hidden_block_at (c : Dev nD) (t : Fin cfg0.N) (j : S2048x256.Idx) :
    hiddenNew (iblk m c 1 t : Vec Ideal S2048x256 .f32)
        (gates (iblk m c 0 t : Vec Ideal S2048x256 .f32) (iblk m c 2 t : Vec Ideal S2048x256 .f32)
          (V m c main_v1 : S256x1024.Idx → Elt Ideal .bf16) (V m c main_v3 : S256x1024.Idx → Elt Ideal .bf16)
          (V m c main_v5 : S1x1024.Idx → Elt Ideal .f32)) j
      = hiddenArr m c (((cfg0.win 7).blk t).view.emb j) := by
  obtain ⟨p, q, rfl⟩ : ∃ (p : Fin 2048) (q : Fin 256), j = ix2 p q := ⟨j 0, j 1, eq_ix2 j⟩
  rw [out_emb_7]
  exact hidden_rows _ _ _ _ _ _ _ _ _ p _ (rows_of_0 m c t p) (rows_of_2 m c t p) (rows_of_1 m c t p) q

/-- What point t writes back is block t of the whole-array function. -/
theorem hidden_flushed (c : Dev nD) (t : Fin cfg0.N) :
    (dats m 0 c).flushed 7 t = ((cfg0.win 7).blk t).view.read (Elt Ideal) (hiddenArr m c) := by
  show (cfg0.win 7).cut (grid0.coords t) ((dats m 0 c).after 7 t) = _
  rw [after_7, hiddenOut_eq, all_of_3, all_of_4, all_of_5]
  funext j
  rw [View.read_apply]
  exact hidden_block_at m c t j

/-- An index of the array lies in point t's block iff each coordinate lies in the block's range. -/
theorem mem_blk_7 (t : Fin cfg0.N) (i : S65536x256.Idx) :
    i ∈ ((cfg0.win 7).blk t).view.set ↔ ∀ a : Fin 2, win0_7.index t a * S2048x256.size a ≤ (i a).val
      ∧ (i a).val < win0_7.index t a * S2048x256.size a + S2048x256.size a := by
  show i ∈ ((View.whole main_v6_1).slice (win0_7.rect t)).set ↔ _
  rw [View.set_slice_whole, Rect.mem_set_unit]
  exact Iff.rfl

/-- Row r of the array lies in the block of point r / 2048: the 32 blocks tile the 65536 rows. -/
theorem covered_7 (i : S65536x256.Idx) :
    ∃ t : Fin cfg0.N, (cfg0.win 7).flush t = true ∧ i ∈ ((cfg0.win 7).blk t).view.set := by
  have hi0 : (i 0).val < 65536 := (i 0).isLt
  have hi1 : (i 1).val < 256 := (i 1).isLt
  obtain ⟨t, ht⟩ : ∃ t : Fin cfg0.N, t.val = (i 0).val / 2048 :=
    ⟨⟨(i 0).val / 2048, by rw [show cfg0.N = 32 from N_0]; omega⟩, rfl⟩
  obtain ⟨e0, e1⟩ := idx_7 t
  refine ⟨t, flush0_7 t, ?_⟩
  rw [mem_blk_7]
  intro a
  match a with
  | ⟨0, _⟩ =>
    show win0_7.index t (0 : Fin 2) * 2048 ≤ (i 0).val ∧ (i 0).val < win0_7.index t (0 : Fin 2) * 2048 + 2048
    rw [e0]; omega
  | ⟨1, _⟩ =>
    show win0_7.index t (1 : Fin 2) * 256 ≤ (i 1).val ∧ (i 1).val < win0_7.index t (1 : Fin 2) * 256 + 256
    rw [e1]; omega

/-- So the array ends holding the whole-array function. -/
theorem hidden_final (c : Dev nD) : (dats m 0 c).arrAt 7 cfg0.N = hiddenArr m c :=
  (dats m 0 c).arrAt_eq_of_cover 7 (hiddenArr m c) (fun t _ => hidden_flushed m c t) covered_7

/-! ## What the three computed windows hold when the region is entered -/

/-- The four gates' input weights side by side. -/
abbrev fusedW (c : Dev nD) : FVec Ideal S256x1024 .f32 := (concatenate S256x1024 1 [⟨S256x256, (m ((c : Thread nD τ).loc main_arg6))⟩, ⟨S256x256, (m ((c : Thread nD τ).loc main_arg3))⟩, ⟨S256x256, (m ((c : Thread nD τ).loc main_arg12))⟩, ⟨S256x256, (m ((c : Thread nD τ).loc main_arg9))⟩] concatenates_S256x256_S256x256_S256x256_S256x256_S256x1024_d1 : FVec Ideal S256x1024 .f32)
/-- The four gates' hidden weights side by side. -/
abbrev fusedU (c : Dev nD) : FVec Ideal S256x1024 .f32 := (concatenate S256x1024 1 [⟨S256x256, (m ((c : Thread nD τ).loc main_arg7))⟩, ⟨S256x256, (m ((c : Thread nD τ).loc main_arg4))⟩, ⟨S256x256, (m ((c : Thread nD τ).loc main_arg13))⟩, ⟨S256x256, (m ((c : Thread nD τ).loc main_arg10))⟩] concatenates_S256x256_S256x256_S256x256_S256x256_S256x1024_d1 : FVec Ideal S256x1024 .f32)
/-- The four gates' biases end to end. -/
abbrev fusedB (c : Dev nD) : FVec Ideal S1024 .f32 := (concatenate S1024 0 [⟨S256, (m ((c : Thread nD τ).loc main_arg8))⟩, ⟨S256, (m ((c : Thread nD τ).loc main_arg5))⟩, ⟨S256, (m ((c : Thread nD τ).loc main_arg14))⟩, ⟨S256, (m ((c : Thread nD τ).loc main_arg11))⟩] concatenates_S256_S256_S256_S256_S1024_d0 : FVec Ideal S1024 .f32)

/-- The input-weight window holds the fused input weights, narrowed. -/
theorem V_in_weights (c : Dev nD) :
    (V m c main_v1 : S256x1024.Idx → Elt Ideal .bf16) = truncf .bf16 (fusedW m c) bitsLt_bf16_f32 := by
  dsimp only [V, hostOps0]; after_results; rfl

/-- The hidden-weight window holds the fused hidden weights, narrowed. -/
theorem V_hid_weights (c : Dev nD) :
    (V m c main_v3 : S256x1024.Idx → Elt Ideal .bf16) = truncf .bf16 (fusedU m c) bitsLt_bf16_f32 := by
  dsimp only [V, hostOps0]; after_results; rfl

/-- The bias window holds the fused bias vector re-shaped to one row. -/
theorem V_bias (c : Dev nD) :
    (V m c main_v5 : S1x1024.Idx → Elt Ideal .f32) = shapeCast S1x1024 (fusedB m c) shapeCasts_S1024_S1x1024 := by
  dsimp only [V, hostOps0]; after_results; rfl

/-- The first result in terms of the arguments: the new cell state of x, h, c under the fused weights and bias row. -/
theorem cellArr_eq (c : Dev nD) :
    cellArr m c = cellNew ((m ((c : Thread nD τ).loc main_arg1)) : S65536x256.Idx → Elt Ideal .f32)
      (gates ((m ((c : Thread nD τ).loc main_arg0)) : S65536x256.Idx → Elt Ideal .f32) ((m ((c : Thread nD τ).loc main_arg2)) : S65536x256.Idx → Elt Ideal .f32)
        (fusedW m c) (fusedU m c) (Cert.Lib.RowVector.asRow (fusedB m c))) := by
  unfold cellArr
  rw [V_kept m c main_arg0 (by decide) (by decide) (by decide) (by decide) (by decide) (by decide),
    V_kept m c main_arg1 (by decide) (by decide) (by decide) (by decide) (by decide) (by decide),
    V_kept m c main_arg2 (by decide) (by decide) (by decide) (by decide) (by decide) (by decide),
    V_in_weights, V_hid_weights, V_bias, Cert.Lib.RowVector.shapeCast_eq_asRow]
  rfl

/-- The second result in terms of the arguments. -/
theorem hiddenArr_eq (c : Dev nD) :
    hiddenArr m c = hiddenNew ((m ((c : Thread nD τ).loc main_arg1)) : S65536x256.Idx → Elt Ideal .f32)
      (gates ((m ((c : Thread nD τ).loc main_arg0)) : S65536x256.Idx → Elt Ideal .f32) ((m ((c : Thread nD τ).loc main_arg2)) : S65536x256.Idx → Elt Ideal .f32)
        (fusedW m c) (fusedU m c) (Cert.Lib.RowVector.asRow (fusedB m c))) := by
  unfold hiddenArr
  rw [V_kept m c main_arg0 (by decide) (by decide) (by decide) (by decide) (by decide) (by decide),
    V_kept m c main_arg1 (by decide) (by decide) (by decide) (by decide) (by decide) (by decide),
    V_kept m c main_arg2 (by decide) (by decide) (by decide) (by decide) (by decide) (by decide),
    V_in_weights, V_hid_weights, V_bias, Cert.Lib.RowVector.shapeCast_eq_asRow]
  rfl

/-! ## The run, read -/

/-- Every weakly fair execution terminates without a fault with the two results at the whole-array functions and the
    fifteen arguments as launched. -/
theorem run_value : θ_run defs (onTc (τ := τ) (main (F := Ideal))) ⟨m, fun _ => 0, ρ⟩ (fun r => ∀ c : Dev nD,
      r.2.mem ((c.tc : Thread nD τ).loc main_v6_0) = cellArr m c
      ∧ r.2.mem ((c.tc : Thread nD τ).loc main_v6_1) = hiddenArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 6).trans (cell_final m c), ((h c).1 7).trans (hidden_final m c),
      ((h c).1 0).trans (((dats m 0 c).arrAt_in 0 rfl _).trans ((A_eq m c 0).trans (V_kept m c main_arg0 (by decide) (by decide) (by decide) (by decide) (by decide) (by decide)))),
      ((h c).1 1).trans (((dats m 0 c).arrAt_in 1 rfl _).trans ((A_eq m c 1).trans (V_kept m c main_arg1 (by decide) (by decide) (by decide) (by decide) (by decide) (by decide)))),
      ((h c).1 2).trans (((dats m 0 c).arrAt_in 2 rfl _).trans ((A_eq m c 2).trans (V_kept m c main_arg2 (by decide) (by decide) (by decide) (by decide) (by decide) (by decide)))),
      ((h c).2 main_arg3 (Pipeline.mem_restRefs_of main_arg3 (by decide) (by decide))).trans (V_kept m c main_arg3 (by decide) (by decide) (by decide) (by decide) (by decide) (by decide)),
      ((h c).2 main_arg4 (Pipeline.mem_restRefs_of main_arg4 (by decide) (by decide))).trans (V_kept m c main_arg4 (by decide) (by decide) (by decide) (by decide) (by decide) (by decide)),
      ((h c).2 main_arg5 (Pipeline.mem_restRefs_of main_arg5 (by decide) (by decide))).trans (V_kept m c main_arg5 (by decide) (by decide) (by decide) (by decide) (by decide) (by decide)),
      ((h c).2 main_arg6 (Pipeline.mem_restRefs_of main_arg6 (by decide) (by decide))).trans (V_kept m c main_arg6 (by decide) (by decide) (by decide) (by decide) (by decide) (by decide)),
      ((h c).2 main_arg7 (Pipeline.mem_restRefs_of main_arg7 (by decide) (by decide))).trans (V_kept m c main_arg7 (by decide) (by decide) (by decide) (by decide) (by decide) (by decide)),
      ((h c).2 main_arg8 (Pipeline.mem_restRefs_of main_arg8 (by decide) (by decide))).trans (V_kept m c main_arg8 (by decide) (by decide) (by decide) (by decide) (by decide) (by decide)),
      ((h c).2 main_arg9 (Pipeline.mem_restRefs_of main_arg9 (by decide) (by decide))).trans (V_kept m c main_arg9 (by decide) (by decide) (by decide) (by decide) (by decide) (by decide)),
      ((h c).2 main_arg10 (Pipeline.mem_restRefs_of main_arg10 (by decide) (by decide))).trans (V_kept m c main_arg10 (by decide) (by decide) (by decide) (by decide) (by decide) (by decide)),
      ((h c).2 main_arg11 (Pipeline.mem_restRefs_of main_arg11 (by decide) (by decide))).trans (V_kept m c main_arg11 (by decide) (by decide) (by decide) (by decide) (by decide) (by decide)),
      ((h c).2 main_arg12 (Pipeline.mem_restRefs_of main_arg12 (by decide) (by decide))).trans (V_kept m c main_arg12 (by decide) (by decide) (by decide) (by decide) (by decide) (by decide)),
      ((h c).2 main_arg13 (Pipeline.mem_restRefs_of main_arg13 (by decide) (by decide))).trans (V_kept m c main_arg13 (by decide) (by decide) (by decide) (by decide) (by decide) (by decide)),
      ((h c).2 main_arg14 (Pipeline.mem_restRefs_of main_arg14 (by decide) (by decide))).trans (V_kept m c main_arg14 (by decide) (by decide) (by decide) (by decide) (by decide) (by decide))⟩) (run_main m ρ)

end Cert.KernelIdeal.Arrays

end
-- ==== Proof.RefWhole.lean ====
/-
  The reference's two results, on the extended reals.

  The reference lays the four gates' input weights side by side, likewise the hidden weights, lays the four bias
  vectors end to end, contracts x and h with the two fused matrices, adds the bias to every row, cuts the 1024 columns
  into the four gates, and applies the cell and hidden updates with the logistic function written 1 / (1 + exp (−v)).
  That is the LSTM step of the specification on all 65536 rows at once, with the fused matrices as W and U and the
  fused bias vector, made a row, as b.
-/
import proofs.«177137_j83897891160514_2_alg».proof.Proof.Gen.ReferenceIdeal.Run
import proofs.«177137_j83897891160514_2_alg».proof.Proof.CellSpec

set_option maxRecDepth 16384

noncomputable section

namespace Cert.ReferenceIdeal.Whole

open Idealize.ShloMosaic Idealize.ShloMosaic.TcCoe Idealize.SL.Sem
open Cert.ReferenceIdeal Cert.ReferenceIdeal.Gen Cert.ReferenceIdeal.Value Cert.Cell Cert.Lib.RowVector

variable (m : (ℓ : Loc nD τ sig) → Buf (Elt Ideal) ℓ)

/-- The four gates' input weights side by side. -/
abbrev fusedW (c : Dev nD) : FVec Ideal S256x1024 .f32 := (concatenate S256x1024 1 [⟨S256x256, (m ((c.tc : Thread nD τ).loc main_arg6))⟩, ⟨S256x256, (m ((c.tc : Thread nD τ).loc main_arg3))⟩, ⟨S256x256, (m ((c.tc : Thread nD τ).loc main_arg12))⟩, ⟨S256x256, (m ((c.tc : Thread nD τ).loc main_arg9))⟩] concatenates_S256x256_S256x256_S256x256_S256x256_S256x1024_d1 : FVec Ideal S256x1024 .f32)
/-- The four gates' hidden weights side by side. -/
abbrev fusedU (c : Dev nD) : FVec Ideal S256x1024 .f32 := (concatenate S256x1024 1 [⟨S256x256, (m ((c.tc : Thread nD τ).loc main_arg7))⟩, ⟨S256x256, (m ((c.tc : Thread nD τ).loc main_arg4))⟩, ⟨S256x256, (m ((c.tc : Thread nD τ).loc main_arg13))⟩, ⟨S256x256, (m ((c.tc : Thread nD τ).loc main_arg10))⟩] concatenates_S256x256_S256x256_S256x256_S256x256_S256x1024_d1 : FVec Ideal S256x1024 .f32)
/-- The four gates' biases end to end. -/
abbrev fusedB (c : Dev nD) : FVec Ideal S1024 .f32 := (concatenate S1024 0 [⟨S256, (m ((c.tc : Thread nD τ).loc main_arg8))⟩, ⟨S256, (m ((c.tc : Thread nD τ).loc main_arg5))⟩, ⟨S256, (m ((c.tc : Thread nD τ).loc main_arg14))⟩, ⟨S256, (m ((c.tc : Thread nD τ).loc main_arg11))⟩] concatenates_S256_S256_S256_S256_S1024_d0 : FVec Ideal S1024 .f32)

/-- The reference's pre-activations are the specification's. -/
theorem ref_gates (c : Dev nD) :
    addf (addf (Host.dotGeneral (φ₁ := .f32) (φ₂ := .f32) dot_S65536x256_S256x1024_S65536x1024_1_0_0_1_n_n none ((m ((c.tc : Thread nD τ).loc main_arg0)) : FVec Ideal S65536x256 .f32) (fusedW m c))
        (Host.dotGeneral (φ₁ := .f32) (φ₂ := .f32) dot_S65536x256_S256x1024_S65536x1024_1_0_0_1_n_n none ((m ((c.tc : Thread nD τ).loc main_arg2)) : FVec Ideal S65536x256 .f32) (fusedU m c)))
      (broadcastInDim S65536x1024 ![0, 1] bcast_S1x1024_S65536x1024_0_1 (broadcastInDim S1x1024 ![1] bcast_S1024_S1x1024_1 (fusedB m c)))
      = gates ((m ((c.tc : Thread nD τ).loc main_arg0)) : S65536x256.Idx → Elt Ideal .f32) ((m ((c.tc : Thread nD τ).loc main_arg2)) : S65536x256.Idx → Elt Ideal .f32)
          (fusedW m c) (fusedU m c) (asRow (fusedB m c)) :=
  host_gates _ _ _ _ _ dot_S65536x256_S256x1024_S65536x1024_1_0_0_1_n_n rfl rfl rfl rfl rfl rfl _ _

/-- The reference's first result is the new cell state of all the rows. -/
theorem ref_cell (c : Dev nD) :
    res_main_v34 (F := Ideal) m c
      = cellNew ((m ((c.tc : Thread nD τ).loc main_arg1)) : S65536x256.Idx → Elt Ideal .f32)
          (gates ((m ((c.tc : Thread nD τ).loc main_arg0)) : S65536x256.Idx → Elt Ideal .f32) ((m ((c.tc : Thread nD τ).loc main_arg2)) : S65536x256.Idx → Elt Ideal .f32)
            (fusedW m c) (fusedU m c) (asRow (fusedB m c))) := by
  unfold res_main_v34
  rw [ref_gates m c]
  exact host_cell _ _ _ _ _ _

/-- The reference's second result is the new hidden state of all the rows. -/
theorem ref_hidden (c : Dev nD) :
    res_main_v36 (F := Ideal) m c
      = hiddenNew ((m ((c.tc : Thread nD τ).loc main_arg1)) : S65536x256.Idx → Elt Ideal .f32)
          (gates ((m ((c.tc : Thread nD τ).loc main_arg0)) : S65536x256.Idx → Elt Ideal .f32) ((m ((c.tc : Thread nD τ).loc main_arg2)) : S65536x256.Idx → Elt Ideal .f32)
            (fusedW m c) (fusedU m c) (asRow (fusedB m c))) := by
  unfold res_main_v36
  rw [ref_gates m c, host_cell]
  exact host_hidden _ _ _ _

end Cert.ReferenceIdeal.Whole

end
-- ==== Proof.lean ====
/-
  A single-step LSTM cell: a tiled vector program against a tensor program.

  Both programs fuse the four gates' parameters in the same order — forget, input, output, candidate — into one
  256 × 1024 input-weight matrix W, one 256 × 1024 hidden-weight matrix U and one bias row b, and compute
      Z = (x·W + h·U) + b,    c' = c · σ(Z_f) + tanh(Z_g) · σ(Z_i),    h' = σ(Z_o) · tanh(c').
  The tiled program visits the 65536 rows in 32 blocks of 2048, each block in two halves of 1024, keeping W, U and b
  resident; the tensor program does everything at once. On the extended reals a change of float format is the
  identity, a product accumulated into zeros is the plain contraction, and the logistic function IS 1 / (1 + exp (−v)),
  so both compute the same functions `cellNew` and `hiddenNew` of the arguments (Proof/CellSpec.lean). Since row p of
  these functions depends on row p of x, h and c only, the blocks the tiled program writes back, which tile the rows,
  assemble the whole-array results (Proof/IdealBlock.lean, Proof/IdealArrays.lean); the tensor program's composed
  term is the same functions directly (Proof/RefWhole.lean). Nothing is distributed or cancelled, so the finiteness
  of the inputs is never used.
  The three frames: each tiled program terminates without a fault and leaves its arguments alone because the host
  operations before its region only read them, x, c and h are only read through their windows, and the weights and
  biases are not touched by the region at all (Proof/WordRegion.lean at the word level, Proof/IdealRegion.lean on the
  extended reals, over the body's triple in Proof/WordPoint.lean and Proof/IdealPoint.lean); the tensor program is a
  straight line of host operations. The tiled program's idealization rewrites nothing, so `preserves` is trivial.
-/
import proofs.«177137_j83897891160514_2_alg».proof.Defs
import proofs.«177137_j83897891160514_2_alg».proof.Proof.Gen.Kernel
import proofs.«177137_j83897891160514_2_alg».proof.Proof.Gen.KernelIdeal
import proofs.«177137_j83897891160514_2_alg».proof.Proof.Gen.ReferenceIdeal
import proofs.«177137_j83897891160514_2_alg».proof.Proof.Gen.ReferenceIdeal.Run
import proofs.«177137_j83897891160514_2_alg».proof.Proof.Gen.Pre_finite_inputs
import proofs.«177137_j83897891160514_2_alg».proof.Proof.WordRegion
import proofs.«177137_j83897891160514_2_alg».proof.Proof.IdealArrays
import proofs.«177137_j83897891160514_2_alg».proof.Proof.RefWhole
import Idealize.ShloMosaic.Adequacy
import Idealize.ShloMosaic.Init

noncomputable section

namespace Cert.Proof

open Idealize.ShloMosaic Idealize.SL.Sem

/-- The word-level tiled program runs to its end and leaves its arguments unchanged. -/
theorem frame_word : Cert.frame_Kernel := fun m ρ _ => Cert.Kernel.Region.frame (F := Bits) m ρ

/-- So does the tiled program on the extended reals. -/
theorem frame_ideal : Cert.frame_KernelIdeal := fun m ρ _ => Cert.KernelIdeal.Region.frame (F := Ideal) m ρ

/-- The tensor program is a straight line of host operations: it ends, and writes no argument. -/
theorem frame_ref : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both programs end with the new cell state and the new hidden state of the
    same arguments under the same fused weights and bias row. -/
theorem algebraic : Cert.algebraic_KernelIdeal_ReferenceIdeal := by
  intro m ρ m' ρ' _ hagree
  refine ⟨fun c => Cert.KernelIdeal.Arrays.cellArr m c, fun c => Cert.KernelIdeal.Arrays.hiddenArr m c,
    Cert.KernelIdeal.Arrays.run_value m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14⟩ := hagree c
    show Cert.ReferenceIdeal.Value.res_main_v34 m' c = Cert.KernelIdeal.Arrays.cellArr m c
    rw [Cert.ReferenceIdeal.Whole.ref_cell, Cert.KernelIdeal.Arrays.cellArr_eq]
    unfold Cert.ReferenceIdeal.Whole.fusedW Cert.ReferenceIdeal.Whole.fusedU Cert.ReferenceIdeal.Whole.fusedB
    rw [h0, h1, h2, h3, h4, h5, h6, h7, h8, h9, h10, h11, h12, h13, h14]
  · obtain ⟨h0, h1, h2, h3, h4, h5, h6, h7, h8, h9, h10, h11, h12, h13, h14⟩ := hagree c
    show Cert.ReferenceIdeal.Value.res_main_v36 m' c = Cert.KernelIdeal.Arrays.hiddenArr m c
    rw [Cert.ReferenceIdeal.Whole.ref_hidden, Cert.KernelIdeal.Arrays.hiddenArr_eq]
    unfold Cert.ReferenceIdeal.Whole.fusedW Cert.ReferenceIdeal.Whole.fusedU Cert.ReferenceIdeal.Whole.fusedB
    rw [h0, h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  frame_word, frame_ideal, frame_ref, preserves, algebraic⟩

end Cert.Proof

end
